-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256x14x14 : Shape := ⟨4, ![256, 256, 14, 14]⟩
abbrev S16x256 : Shape := ⟨2, ![16, 256]⟩
abbrev S16 : Shape := ⟨1, ![16]⟩
abbrev S256x16 : Shape := ⟨2, ![256, 16]⟩
abbrev S256 : Shape := ⟨1, ![256]⟩
abbrev S_ : Shape := ⟨0, ![]⟩

class Facts : Prop where
  bcast_S_S256x256x14x14 : S_.BroadcastsInDim S256x256x14x14 (![] : Fin 0 → Fin S256x256x14x14.rank)
  reducesTo_S256x256x14x14_S_d0_1_2_3 : S256x256x14x14.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S256x256x14x14 .f32) (main_arg1 : FVec F S16x256 .f32) (main_arg2 : FVec F S16 .f32) (main_arg3 : FVec F S256x16 .f32) (main_arg4 : FVec F S256 .f32) : IVec S_ 1 :=
  let main_v0 : FVec F S256x256x14x14 .f32 := Host.absf main_arg0
  let main_cst : FVec F S_ .f32 := constant S_ .f32 0x7F800000#32
  let main_v1 : FVec F S256x256x14x14 .f32 := broadcastInDim S256x256x14x14 ![] bcast_S_S256x256x14x14 main_cst
  let main_v2 : IVec S256x256x14x14 1 := cmpf .olt main_v0 main_v1
  let main_c : IVec S_ 1 := constantI S_ 1 1#1
  let main_v3 : IVec S_ 1 := (fun x v => Host.reduce IntOp.andi x v reducesTo_S256x256x14x14_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_v13 main_v16
-- ==== Kernel.lean ====
abbrev S256x256x14x14 : Shape := ⟨4, ![256, 256, 14, 14]⟩
abbrev S16x256 : Shape := ⟨2, ![16, 256]⟩
abbrev S16 : Shape := ⟨1, ![16]⟩
abbrev S256x16 : Shape := ⟨2, ![256, 16]⟩
abbrev S256 : Shape := ⟨1, ![256]⟩
abbrev S256x256x196 : Shape := ⟨3, ![256, 256, 196]⟩
abbrev S1x16 : Shape := ⟨2, ![1, 16]⟩
abbrev S1x256 : Shape := ⟨2, ![1, 256]⟩
abbrev S28x256x196 : Shape := ⟨3, ![28, 256, 196]⟩
abbrev S28x256 : Shape := ⟨2, ![28, 256]⟩
abbrev S28x16 : Shape := ⟨2, ![28, 16]⟩
abbrev S28x256x1 : Shape := ⟨3, ![28, 256, 1]⟩

abbrev nBuf : Space → Nat
  | .hbm => 10
  | .vmem => 8
  | .smem => 0
  | _ => 0

abbrev bufTy : (tb : Table) → Fin (tcTables nBuf tb) → BufTy
  | .hbm, ⟨0, _⟩ => ⟨S256x256x14x14, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S256x256x196, .f32⟩
  | .hbm, ⟨6, _⟩ => ⟨S1x16, .f32⟩
  | .hbm, ⟨7, _⟩ => ⟨S1x256, .f32⟩
  | .hbm, ⟨8, _⟩ => ⟨S256x256x196, .f32⟩
  | .hbm, ⟨9, _⟩ => ⟨S256x256x14x14, .f32⟩
  | .local _ .vmem, ⟨0, _⟩ => ⟨S28x256x196, .f32⟩
  | .local _ .vmem, ⟨1, _⟩ => ⟨S28x256x196, .f32⟩
  | .local _ .vmem, ⟨2, _⟩ => ⟨S16x256, .f32⟩
  | .local _ .vmem, ⟨3, _⟩ => ⟨S1x16, .f32⟩
  | .local _ .vmem, ⟨4, _⟩ => ⟨S256x16, .f32⟩
  | .local _ .vmem, ⟨5, _⟩ => ⟨S1x256, .f32⟩
  | .local _ .vmem, ⟨6, _⟩ => ⟨S28x256x196, .f32⟩
  | .local _ .vmem, ⟨7, _⟩ => ⟨S28x256x196, .f32⟩
  | _, _ => ⟨S256x256x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S28x256x196 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S28x256x196 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S256x256x14x14_S256x256x196 : S256x256x14x14.ShapeCasts S256x256x196
  shapeCasts_S16_S1x16 : S16.ShapeCasts S1x16
  shapeCasts_S256_S1x256 : S256.ShapeCasts S1x256
  inb_S28x256x196_S28x256x196_0_0_0 : ∀ a, (![0, 0, 0] : Fin 3 → Nat) a + S28x256x196.size a ≤ S28x256x196.size a
  h_S28x256x196 : 0 < S28x256x196.numel
  shapeCasts_S28x256x196_S28x256x196 : S28x256x196.ShapeCasts S28x256x196
  inb_S16x256_S16x256_0_0 : ∀ a, (![0, 0] : Fin 2 → Nat) a + S16x256.size a ≤ S16x256.size a
  h_S16x256 : 0 < S16x256.numel
  transposes_S16x256_p1_0_S256x16 : S16x256.Transposes [1, 0] S256x16
  inb_S256x16_S256x16_0_0 : ∀ a, (![0, 0] : Fin 2 → Nat) a + S256x16.size a ≤ S256x16.size a
  h_S256x16 : 0 < S256x16.numel
  transposes_S256x16_p1_0_S16x256 : S256x16.Transposes [1, 0] S16x256
  reduces_S28x256x196_S28x256 : S28x256x196.Reduces [2] S28x256
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S28x16 : S1x16.Broadcasts S28x16
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S28x256 : S1x256.Broadcasts S28x256
  shapeCasts_S28x256_S28x256x1 : S28x256.ShapeCasts S28x256x1
  broadcasts_S28x256x1_S28x256x196 : S28x256x1.Broadcasts S28x256x196
  shapeCasts_S256x256x196_S256x256x14x14 : S256x256x196.ShapeCasts S256x256x14x14
  dot_S28x256_S256x16_S28x16_1_0_0_1_n_n_wf : DotDims.WF S28x256 S256x16 S28x16 [1] [0] [0] [1] [] []
  dot_S28x16_S16x256_S28x256_1_0_0_1_n_n_wf : DotDims.WF S28x16 S16x256 S28x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S28x256x196.size a < S256x256x196.size a
  hwx0_0 : ∀ i : grid0.Coords, EltTy.bits .f32 = 32 ∨ (Rect.unit (s := S256x256x196) (fun a => cc0_transform_0 i a * S28x256x196.size a) (fun a => (Pipeline.Clip.of (cc0_transform_0 i a) (S28x256x196.size a) (S256x256x196.size a)).extent (S28x256x196.size a)) fun a => Pipeline.Clip.inb (Pipeline.Clip.ok_of (hstart0_0 i a))).WholeWords (EltTy.packing .f32)
  hwxs0_0 : ∀ i : grid0.Coords, EltTy.bits .f32 = 32 ∨ (Rect.unit (s := S28x256x196) (fun _ => 0) (fun a => (Pipeline.Clip.of (cc0_transform_0 i a) (S28x256x196.size a) (S256x256x196.size a)).extent (S28x256x196.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S16x256.size a
  hwx0_1 : ∀ i : grid0.Coords, EltTy.bits .f32 = 32 ∨ (Rect.block (s := S16x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x16.size a ≤ S256x16.size a
  hwx0_3 : ∀ i : grid0.Coords, EltTy.bits .f32 = 32 ∨ (Rect.block (s := S256x16) S256x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S28x256x196.size a < S256x256x196.size a
  hwx0_5 : ∀ i : grid0.Coords, EltTy.bits .f32 = 32 ∨ (Rect.unit (s := S256x256x196) (fun a => cc0_transform_5 i a * S28x256x196.size a) (fun a => (Pipeline.Clip.of (cc0_transform_5 i a) (S28x256x196.size a) (S256x256x196.size a)).extent (S28x256x196.size a)) fun a => Pipeline.Clip.inb (Pipeline.Clip.ok_of (hstart0_5 i a))).WholeWords (EltTy.packing .f32)
  hwxs0_5 : ∀ i : grid0.Coords, EltTy.bits .f32 = 32 ∨ (Rect.unit (s := S28x256x196) (fun _ => 0) (fun a => (Pipeline.Clip.of (cc0_transform_5 i a) (S28x256x196.size a) (S256x256x196.size a)).extent (S28x256x196.size a)) fun a => (Nat.zero_add _).trans_le (Pipeline.Clip.extent_le (Pipeline.Clip.ok_of (hstart0_5 i a)))).WholeWords (EltTy.packing .f32)

variable [Facts₀]

def dot_S28x256_S256x16_S28x16_1_0_0_1_n_n : DotDims S28x256 S256x16 S28x16 where
  lhsContracting := [1]
  rhsContracting := [0]
  lhsNonContracting := [0]
  rhsNonContracting := [1]
  lhsBatch := []
  rhsBatch := []
  wf := dot_S28x256_S256x16_S28x16_1_0_0_1_n_n_wf
def dot_S28x16_S16x256_S28x256_1_0_0_1_n_n : DotDims S28x16 S16x256 S28x256 where
  lhsContracting := [1]
  rhsContracting := [0]
  lhsNonContracting := [0]
  rhsNonContracting := [1]
  lhsBatch := []
  rhsBatch := []
  wf := dot_S28x16_S16x256_S28x256_1_0_0_1_n_n_wf

abbrev win0_0 : Pipeline.Window sig grid0 :=
  Pipeline.Window.ofSpecClip (Memref.whole main_v0) S28x256x196.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v3) S28x256x196.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S256x256x14x14 : Shape := ⟨4, ![256, 256, 14, 14]⟩
abbrev S16x256 : Shape := ⟨2, ![16, 256]⟩
abbrev S16 : Shape := ⟨1, ![16]⟩
abbrev S256x16 : Shape := ⟨2, ![256, 16]⟩
abbrev S256 : Shape := ⟨1, ![256]⟩
abbrev S256x256x196 : Shape := ⟨3, ![256, 256, 196]⟩
abbrev S1x16 : Shape := ⟨2, ![1, 16]⟩
abbrev S1x256 : Shape := ⟨2, ![1, 256]⟩
abbrev S28x256x196 : Shape := ⟨3, ![28, 256, 196]⟩
abbrev S28x256 : Shape := ⟨2, ![28, 256]⟩
abbrev S28x16 : Shape := ⟨2, ![28, 16]⟩
abbrev S28x256x1 : Shape := ⟨3, ![28, 256, 1]⟩

abbrev nBuf : Space → Nat
  | .hbm => 12
  | .vmem => 8
  | .smem => 0
  | _ => 0

abbrev bufTy : (tb : Table) → Fin (tcTables nBuf tb) → BufTy
  | .hbm, ⟨0, _⟩ => ⟨S256x256x14x14, .f32⟩
  | .hbm, ⟨1, _⟩ => ⟨S16x256, .f32⟩
  | .hbm, ⟨2, _⟩ => ⟨S16, .f32⟩
  | .hbm, ⟨3, _⟩ => ⟨S256x16, .f32⟩
  | .hbm, ⟨4, _⟩ => ⟨S256, .f32⟩
  | .hbm, ⟨5, _⟩ => ⟨S256x256x196, .f32⟩
  | .hbm, ⟨6, _⟩ => ⟨S256x16, .f32⟩
  | .hbm, ⟨7, _⟩ => ⟨S16x256, .f32⟩
  | .hbm, ⟨8, _⟩ => ⟨S1x16, .f32⟩
  | .hbm, ⟨9, _⟩ => ⟨S1x256, .f32⟩
  | .hbm, ⟨10, _⟩ => ⟨S256x256x196, .f32⟩
  | .hbm, ⟨11, _⟩ => ⟨S256x256x14x14, .f32⟩
  | .local _ .vmem, ⟨0, _⟩ => ⟨S28x256x196, .f32⟩
  | .local _ .vmem, ⟨1, _⟩ => ⟨S28x256x196, .f32⟩
  | .local _ .vmem, ⟨2, _⟩ => ⟨S256x16, .f32⟩
  | .local _ .vmem, ⟨3, _⟩ => ⟨S1x16, .f32⟩
  | .local _ .vmem, ⟨4, _⟩ => ⟨S16x256, .f32⟩
  | .local _ .vmem, ⟨5, _⟩ => ⟨S1x256, .f32⟩
  | .local _ .vmem, ⟨6, _⟩ => ⟨S28x256x196, .f32⟩
  | .local _ .vmem, ⟨7, _⟩ => ⟨S28x256x196, .f32⟩
  | _, _ => ⟨S256x256x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S28x256x196 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S28x256x196 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S256x256x14x14_S256x256x196 : S256x256x14x14.ShapeCasts S256x256x196
  transposes_S16x256_S256x16_1_0 : S16x256.Transposes [1, 0] S256x16
  transposes_S256x16_S16x256_1_0 : S256x16.Transposes [1, 0] S16x256
  shapeCasts_S16_S1x16 : S16.ShapeCasts S1x16
  shapeCasts_S256_S1x256 : S256.ShapeCasts S1x256
  inb_S28x256x196_S28x256x196_0_0_0 : ∀ a, (![0, 0, 0] : Fin 3 → Nat) a + S28x256x196.size a ≤ S28x256x196.size a
  h_S28x256x196 : 0 < S28x256x196.numel
  shapeCasts_S28x256x196_S28x256x196 : S28x256x196.ShapeCasts S28x256x196
  reduces_S28x256x196_S28x256 : S28x256x196.Reduces [2] S28x256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S28x16 : S1x16.Broadcasts S28x16
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S28x256 : S1x256.Broadcasts S28x256
  shapeCasts_S28x256_S28x256x1 : S28x256.ShapeCasts S28x256x1
  broadcasts_S28x256x1_S28x256x196 : S28x256x1.Broadcasts S28x256x196
  shapeCasts_S256x256x196_S256x256x14x14 : S256x256x196.ShapeCasts S256x256x14x14
  dot_S28x256_S256x16_S28x16_1_0_0_1_n_n_wf : DotDims.WF S28x256 S256x16 S28x16 [1] [0] [0] [1] [] []
  dot_S28x16_S16x256_S28x256_1_0_0_1_n_n_wf : DotDims.WF S28x16 S16x256 S28x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S28x256x196.size a < S256x256x196.size a
  hwx0_0 : ∀ i : grid0.Coords, EltTy.bits .f32 = 32 ∨ (Rect.unit (s := S256x256x196) (fun a => cc0_transform_0 i a * S28x256x196.size a) (fun a => (Pipeline.Clip.of (cc0_transform_0 i a) (S28x256x196.size a) (S256x256x196.size a)).extent (S28x256x196.size a)) fun a => Pipeline.Clip.inb (Pipeline.Clip.ok_of (hstart0_0 i a))).WholeWords (EltTy.packing .f32)
  hwxs0_0 : ∀ i : grid0.Coords, EltTy.bits .f32 = 32 ∨ (Rect.unit (s := S28x256x196) (fun _ => 0) (fun a => (Pipeline.Clip.of (cc0_transform_0 i a) (S28x256x196.size a) (S256x256x196.size a)).extent (S28x256x196.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S16x256.size a
  hwx0_3 : ∀ i : grid0.Coords, EltTy.bits .f32 = 32 ∨ (Rect.block (s := S16x256) S16x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S28x256x196.size a < S256x256x196.size a
  hwx0_5 : ∀ i : grid0.Coords, EltTy.bits .f32 = 32 ∨ (Rect.unit (s := S256x256x196) (fun a => cc0_transform_5 i a * S28x256x196.size a) (fun a => (Pipeline.Clip.of (cc0_transform_5 i a) (S28x256x196.size a) (S256x256x196.size a)).extent (S28x256x196.size a)) fun a => Pipeline.Clip.inb (Pipeline.Clip.ok_of (hstart0_5 i a))).WholeWords (EltTy.packing .f32)
  hwxs0_5 : ∀ i : grid0.Coords, EltTy.bits .f32 = 32 ∨ (Rect.unit (s := S28x256x196) (fun _ => 0) (fun a => (Pipeline.Clip.of (cc0_transform_5 i a) (S28x256x196.size a) (S256x256x196.size a)).extent (S28x256x196.size a)) fun a => (Nat.zero_add _).trans_le (Pipeline.Clip.extent_le (Pipeline.Clip.ok_of (hstart0_5 i a)))).WholeWords (EltTy.packing .f32)

variable [Facts₀]

def dot_S28x256_S256x16_S28x16_1_0_0_1_n_n : DotDims S28x256 S256x16 S28x16 where
  lhsContracting := [1]
  rhsContracting := [0]
  lhsNonContracting := [0]
  rhsNonContracting := [1]
  lhsBatch := []
  rhsBatch := []
  wf := dot_S28x256_S256x16_S28x16_1_0_0_1_n_n_wf
def dot_S28x16_S16x256_S28x256_1_0_0_1_n_n : DotDims S28x16 S16x256 S28x256 where
  lhsContracting := [1]
  rhsContracting := [0]
  lhsNonContracting := [0]
  rhsNonContracting := [1]
  lhsBatch := []
  rhsBatch := []
  wf := dot_S28x16_S16x256_S28x256_1_0_0_1_n_n_wf

abbrev win0_0 : Pipeline.Window sig grid0 :=
  Pipeline.Window.ofSpecClip (Memref.whole main_v0) S28x256x196.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S16x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v5) S28x256x196.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.BitsBody.lean ====
/-
  The body of the squeeze-and-excitation kernel, run once on whole staging buffers.

  One grid point handles 28 batch rows.  The body reads the whole input block `x` (28 × 256 × 196), the two
  weight matrices and the two bias rows, and overwrites the whole output block with `x · g`, where the gate `g`
  (28 × 256) is computed from the row sums of `x`.  Nothing else is touched: the five input buffers are left as
  they were found, and the output buffer ends holding one pure function of the five inputs.
-/
import proofs.«115121_g2000306424445056_pallasbulk_1197_30_alg».proof.Proof.Gen.Kernel.Frame
import proofs.«115121_g2000306424445056_pallasbulk_1197_30_alg».proof.Proof.Gen.Kernel.Skeleton
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The rectangles the body's loads and its one store go through: each is its buffer's whole extent. -/
abbrev rX : Rect S28x256x196 := Rect.unit (s := S28x256x196) ![0, 0, 0] S28x256x196.size inb_S28x256x196_S28x256x196_0_0_0
abbrev rW1 : Rect S16x256 := Rect.unit (s := S16x256) ![0, 0] S16x256.size inb_S16x256_S16x256_0_0
abbrev rB1 : Rect S1x16 := Rect.unit (s := S1x16) ![0, 0] S1x16.size inb_S1x16_S1x16_0_0
abbrev rW2 : Rect S256x16 := Rect.unit (s := S256x16) ![0, 0] S256x16.size inb_S256x16_S256x16_0_0
abbrev rB2 : Rect S1x256 := Rect.unit (s := S1x256) ![0, 0] S1x256.size inb_S1x256_S1x256_0_0

/-- What the output buffer holds after the body, as a function of what the five input buffers hold: the one
    store's value over the loaded inputs. -/
def outBlk (x : Vec F S28x256x196 .f32) (w1 : Vec F S16x256 .f32) (b1 : Vec F S1x16 .f32) (w2 : Vec F S256x16 .f32)
    (b2 : Vec F S1x256 .f32) : Vec F S28x256x196 .f32 :=
  View.canon [⟨rX, k0_pay1 (View.ld x rX) (View.ld w1 rW1) (View.ld w2 rW2) (View.ld b1 rB1) (View.ld b2 rB2)⟩]

/-- The one store covers the output buffer. -/
theorem cover_out (p0 : Vec F S28x256x196 .f32) (y : S28x256x196.Idx) :
    ∃ pc ∈ ([⟨rX, p0⟩] : List (View.Piece (Elt F) S28x256x196 .f32)), y ∈ pc.1.set :=
  View.cover_of_tiled [⟨rX, p0⟩] S28x256x196.size (by rfl) y

set_option maxHeartbeats 1000000 in
/-- The body on whole buffers: the inputs at `x, w1, b1, w2, b2` and the output at anything run to the inputs
    unchanged and the output at `outBlk` of them. -/
theorem sound_kernel (c : Dev nD) (E : Set ℕ) (i : grid0.Coords)
    (a1 : Memref sig .tc .vmem S28x256x196 .f32) (h1 : a1.IsWhole) (a2 : Memref sig .tc .vmem S16x256 .f32) (h2 : a2.IsWhole)
    (a3 : Memref sig .tc .vmem S1x16 .f32) (h3 : a3.IsWhole) (a4 : Memref sig .tc .vmem S256x16 .f32) (h4 : a4.IsWhole)
    (a5 : Memref sig .tc .vmem S1x256 .f32) (h5 : a5.IsWhole) (a6 : Memref sig .tc .vmem S28x256x196 .f32) (h6 : a6.IsWhole)
    (x : Vec F S28x256x196 .f32) (w1 : Vec F S16x256 .f32) (b1 : Vec F S1x16 .f32) (w2 : Vec F S256x16 .f32)
    (b2 : Vec F S1x256 .f32) (K : PUnit → sProp 𝕄) :
    iprop(owns (c : Thread nD τ) a1 fullShare x ∗ owns (c : Thread nD τ) a2 fullShare w1 ∗ owns (c : Thread nD τ) a3 fullShare b1
        ∗ owns (c : Thread nD τ) a4 fullShare w2 ∗ owns (c : Thread nD τ) a5 fullShare b2 ∗ (∃ d, owns (c : Thread nD τ) a6 fullShare d)
        ∗ (iprop(owns (c : Thread nD τ) a1 fullShare x ∗ owns (c : Thread nD τ) a2 fullShare w1 ∗ owns (c : Thread nD τ) a3 fullShare b1
            ∗ owns (c : Thread nD τ) a4 fullShare w2 ∗ owns (c : Thread nD τ) a5 fullShare b2
            ∗ owns (c : Thread nD τ) a6 fullShare (outBlk x w1 b1 w2 b2)) -∗ K ⟨⟩))
      ⊢ wp frame (wpE (defs₀ (F := F)) Variants.none c none) E (cc0__se_block i a1 h1 a2 h2 a3 h3 a4 h4 a5 h5 a6 h6) K := by
  simp only [cc0__se_block_eq_skeleton]; unfold cc0__se_block_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

/-- The store writes the whole buffer and each load reads a whole buffer, so the output buffer ends at the stored
    value of the input buffers' contents themselves. -/
theorem outBlk_eq (x : Vec F S28x256x196 .f32) (w1 : Vec F S16x256 .f32) (b1 : Vec F S1x16 .f32) (w2 : Vec F S256x16 .f32)
    (b2 : Vec F S1x256 .f32) : outBlk x w1 b1 w2 b2 = k0_pay1 x w1 w2 b1 b2 := by
  have hz3 : (![0, 0, 0] : Fin 3 → Nat) = fun _ => 0 := funext fun a => by fin_cases a <;> rfl
  have hz2 : (![0, 0] : Fin 2 → Nat) = fun _ => 0 := funext fun a => by fin_cases a <;> rfl
  unfold outBlk
  rw [View.canon_unit_zero hz3]
  simp only [View.ld_unit_zero (S := S28x256x196) hz3, View.ld_unit_zero (S := S16x256) hz2,
    View.ld_unit_zero (S := S256x16) hz2, View.ld_unit_zero (S := S1x16) hz2, View.ld_unit_zero (S := S1x256) hz2]

end Cert.Kernel.Hand

end
-- ==== Proof.BitsFrame.lean ====
/-
  The frame of the kernel program as printed: it runs to the end, faults nowhere, and leaves its five argument
  arrays as they were.

  Nothing is claimed here of the result array, so the output's staging buffer is handed to the body at contents
  nothing names and taken back the same way.  The five inputs' staging buffers are handed back as found: the small
  ones at their blocks, the big one at its block on the rows inside the array.
-/
import proofs.«115121_g2000306424445056_pallasbulk_1197_30_alg».proof.Proof.BitsBody
import Idealize.ShloMosaic.Lib.Pipeline.Frame
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A filler for the rows of the big input buffer that lie past the array's end: nothing reads it. -/
def zfill : S28x256x196.Idx → Elt F .f32 := fun _ => Scalar.ofBits .f32 0#32

/-- The input block as a fetch leaves it, the rows past the array's end at `d`. -/
def xin (c : Dev nD) (t : Fin cfg0.N) (d : S28x256x196.Idx → Elt F .f32) : S28x256x196.Idx → Elt F .f32 :=
  win0_0.fill (grid0.coords t) d (iblk m c 0 t)

/-- The one window whose buffer's contents are not named: the output's. -/
def forgets0 : Fin 6 → Bool := fun w => w.val == 5

/-- The proof data on core `c`: the arrays as the region finds them; after the body each small input buffer at its
    block and the big one at its block filled out; the output's not named. -/
def dats (_ : Fin 1) (c : Dev nD) : Dat τ (Elt F) Unit ℕ (UR sig nD τ) ℕ cfg0 c where
  A w := V m c (Pipeline.arrRef spec0 w)
  after w t := match w with
    | ⟨0, _⟩ => xin m c t zfill
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xin m c t zfill := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem before0_0 (c : Dev nD) (t : Fin cfg0.N) (d) : (dats m 0 c).before 0 t d = xin m c t d := by
  unfold Dat.before; rw [if_pos (fetch0_0 t)]; rfl
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))

/-- and what it returns: the big input buffer named on the rows inside the array only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩, ⟨%d5, H5⟩⟩
  iapply (sound_kernel (F := F) c Set.univ _ _ _ _ _ _ _ _ _ _ _ _ _
    (xin m c t d0) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  have hx : win0_0.fill (grid0.coords t) d0 (win0_0.cut (grid0.coords t) (xin m c t zfill)) = xin m c t d0 := by
    unfold xin; rw [Window.cut_fill]
  isplitl [H0]
  · iexists d0
    change _ ⊢ owns (c : Thread nD τ) (st0_0 t) fullShare (win0_0.fill (grid0.coords t) d0 (win0_0.cut (grid0.coords t) (xin m c t zfill)))
    rw [hx]; try iexact H0
  isplitl [H1]; · iexact H1
  isplitl [H2]; · iexact H2
  isplitl [H3]; · iexact H3
  isplitl [H4]; · iexact H4
  iexists _; iexact H5

/-- The library's body obligation, the output window forgotten. -/
theorem body_obligation (c : Dev nD) :
    BodyObligationLoose (dats (F := F) m 0 c) (defs₀ (F := F)) Variants.none () Set.univ forgets0 := fun t => by
  rw [bigSep_W0, bigSep_W0]
  exact sound_body m c t

/-- The lines after the region write the reshaped result only. -/
theorem sfx_writes : ∀ ops ∈ ([hostOps1] : List (List (HloOp τ sig (Elt F)))), ∀ op ∈ ops,
    ∀ b : Ref sig .tc, Proc.devRef .tc b ∈ op.writes → b ∈ ({main_v4} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  rw [StableHlo.reshape_writes, Finset.mem_singleton] at hb
  exact Finset.mem_singleton.mpr (Proc.devRef_injective (τ := τ) _ hb)

set_option backward.isDefEq.respectTransparency.types false in
/-- Every weakly fair execution of @main terminates; every input array of the pipeline ends as found, nothing is
    stated of the output array, and every other buffer but the reshaped result ends as the region found it. -/
theorem run_main : θ_run defs (onTc (τ := τ) (main (F := F))) (s₀ m ρ)
    (Pipeline.RDat.FramePostR (cfgs 0) (fun c => (dats m 0 c).toRForget forgets0) {main_v4} (V m)) :=
  Pipeline.RDat.θ_run_frame_around_T cfgs (0 : Fin 1) launch0 defs₀ Variants.none (fun c => (dats m 0 c).toRForget forgets0)
    {main_v4} m ρ main
    (hbody := fun c => (body_obligation m c).toRForget)
    (hshare := fun c => ((dats m 0 c).toRForget forgets0).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m) (hΦ := fun _ _ => rfl)

/-- The frame claim's post, from the run: a staged argument array is never written back; an argument array no
    window stages is neither a window's array nor the reshaped result, so it ends as the region found it, which
    is as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).2 main_arg0 (Finset.mem_sdiff.mpr ⟨Pipeline.mem_restRefs_of main_arg0 (by decide) (by decide),
        Finset.mem_singleton.not.mpr (by decide)⟩)).trans (V_main_arg0 m c),
      (Eq.mp (congrFun (((dats m 0 c).toRForget forgets0).ArrAt_in 1 rfl _) _) ((h c).1 1)).trans
        ((A_eq m c 1).trans (V_main_arg1 m c)),
      ((h c).2 main_arg2 (Finset.mem_sdiff.mpr ⟨Pipeline.mem_restRefs_of main_arg2 (by decide) (by decide),
        Finset.mem_singleton.not.mpr (by decide)⟩)).trans (V_main_arg2 m c),
      (Eq.mp (congrFun (((dats m 0 c).toRForget forgets0).ArrAt_in 3 rfl _) _) ((h c).1 3)).trans
        ((A_eq m c 3).trans (V_main_arg3 m c)),
      ((h c).2 main_arg4 (Finset.mem_sdiff.mpr ⟨Pipeline.mem_restRefs_of main_arg4 (by decide) (by decide),
        Finset.mem_singleton.not.mpr (by decide)⟩)).trans (V_main_arg4 m c)⟩) (run_main m ρ)

end Cert.Kernel.Hand

end
-- ==== Proof.IdealBody.lean ====
/-
  The body of the squeeze-and-excitation kernel, run once on whole staging buffers.

  One grid point handles 28 batch rows.  The body reads the whole input block `x` (28 × 256 × 196), the two
  weight matrices and the two bias rows, and overwrites the whole output block with `x · g`, where the gate `g`
  (28 × 256) is computed from the row sums of `x`.  Nothing else is touched: the five input buffers are left as
  they were found, and the output buffer ends holding one pure function of the five inputs.
-/
import proofs.«115121_g2000306424445056_pallasbulk_1197_30_alg».proof.Proof.Gen.KernelIdeal.Frame
import proofs.«115121_g2000306424445056_pallasbulk_1197_30_alg».proof.Proof.Gen.KernelIdeal.Skeleton
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The rectangles the body's loads and its one store go through: each is its buffer's whole extent. -/
abbrev rX : Rect S28x256x196 := Rect.unit (s := S28x256x196) ![0, 0, 0] S28x256x196.size inb_S28x256x196_S28x256x196_0_0_0
abbrev rW1 : Rect S16x256 := Rect.unit (s := S16x256) ![0, 0] S16x256.size inb_S16x256_S16x256_0_0
abbrev rB1 : Rect S1x16 := Rect.unit (s := S1x16) ![0, 0] S1x16.size inb_S1x16_S1x16_0_0
abbrev rW2 : Rect S256x16 := Rect.unit (s := S256x16) ![0, 0] S256x16.size inb_S256x16_S256x16_0_0
abbrev rB2 : Rect S1x256 := Rect.unit (s := S1x256) ![0, 0] S1x256.size inb_S1x256_S1x256_0_0

/-- What the output buffer holds after the body, as a function of what the five input buffers hold: the one
    store's value over the loaded inputs. -/
def outBlk (x : Vec F S28x256x196 .f32) (w1 : Vec F S16x256 .f32) (b1 : Vec F S1x16 .f32) (w2 : Vec F S256x16 .f32)
    (b2 : Vec F S1x256 .f32) : Vec F S28x256x196 .f32 :=
  View.canon [⟨rX, k0_pay1 (View.ld x rX) (View.ld w1 rW1) (View.ld w2 rW2) (View.ld b1 rB1) (View.ld b2 rB2)⟩]

/-- The one store covers the output buffer. -/
theorem cover_out (p0 : Vec F S28x256x196 .f32) (y : S28x256x196.Idx) :
    ∃ pc ∈ ([⟨rX, p0⟩] : List (View.Piece (Elt F) S28x256x196 .f32)), y ∈ pc.1.set :=
  View.cover_of_tiled [⟨rX, p0⟩] S28x256x196.size (by rfl) y

set_option maxHeartbeats 1000000 in
/-- The body on whole buffers: the inputs at `x, w1, b1, w2, b2` and the output at anything run to the inputs
    unchanged and the output at `outBlk` of them. -/
theorem sound_kernel (c : Dev nD) (E : Set ℕ) (i : grid0.Coords)
    (a1 : Memref sig .tc .vmem S28x256x196 .f32) (h1 : a1.IsWhole) (a2 : Memref sig .tc .vmem S16x256 .f32) (h2 : a2.IsWhole)
    (a3 : Memref sig .tc .vmem S1x16 .f32) (h3 : a3.IsWhole) (a4 : Memref sig .tc .vmem S256x16 .f32) (h4 : a4.IsWhole)
    (a5 : Memref sig .tc .vmem S1x256 .f32) (h5 : a5.IsWhole) (a6 : Memref sig .tc .vmem S28x256x196 .f32) (h6 : a6.IsWhole)
    (x : Vec F S28x256x196 .f32) (w1 : Vec F S16x256 .f32) (b1 : Vec F S1x16 .f32) (w2 : Vec F S256x16 .f32)
    (b2 : Vec F S1x256 .f32) (K : PUnit → sProp 𝕄) :
    iprop(owns (c : Thread nD τ) a1 fullShare x ∗ owns (c : Thread nD τ) a2 fullShare w1 ∗ owns (c : Thread nD τ) a3 fullShare b1
        ∗ owns (c : Thread nD τ) a4 fullShare w2 ∗ owns (c : Thread nD τ) a5 fullShare b2 ∗ (∃ d, owns (c : Thread nD τ) a6 fullShare d)
        ∗ (iprop(owns (c : Thread nD τ) a1 fullShare x ∗ owns (c : Thread nD τ) a2 fullShare w1 ∗ owns (c : Thread nD τ) a3 fullShare b1
            ∗ owns (c : Thread nD τ) a4 fullShare w2 ∗ owns (c : Thread nD τ) a5 fullShare b2
            ∗ owns (c : Thread nD τ) a6 fullShare (outBlk x w1 b1 w2 b2)) -∗ K ⟨⟩))
      ⊢ wp frame (wpE (defs₀ (F := F)) Variants.none c none) E (cc0__se_block i a1 h1 a2 h2 a3 h3 a4 h4 a5 h5 a6 h6) K := by
  simp only [cc0__se_block_eq_skeleton]; unfold cc0__se_block_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

/-- The store writes the whole buffer and each load reads a whole buffer, so the output buffer ends at the stored
    value of the input buffers' contents themselves. -/
theorem outBlk_eq (x : Vec F S28x256x196 .f32) (w1 : Vec F S16x256 .f32) (b1 : Vec F S1x16 .f32) (w2 : Vec F S256x16 .f32)
    (b2 : Vec F S1x256 .f32) : outBlk x w1 b1 w2 b2 = k0_pay1 x w1 w2 b1 b2 := by
  have hz3 : (![0, 0, 0] : Fin 3 → Nat) = fun _ => 0 := funext fun a => by fin_cases a <;> rfl
  have hz2 : (![0, 0] : Fin 2 → Nat) = fun _ => 0 := funext fun a => by fin_cases a <;> rfl
  unfold outBlk
  rw [View.canon_unit_zero hz3]
  simp only [View.ld_unit_zero (S := S28x256x196) hz3, View.ld_unit_zero (S := S16x256) hz2,
    View.ld_unit_zero (S := S256x16) hz2, View.ld_unit_zero (S := S1x16) hz2, View.ld_unit_zero (S := S1x256) hz2]

end Cert.KernelIdeal.Hand

end
-- ==== Proof.IdealData.lean ====
/-
  The proof data of the one pipeline, the body's obligation at every grid point, and the run.

  The grid has ten points of 28 batch rows; 10 · 28 = 280 > 256, so the last block overhangs the array: of its
  28 rows only the first four lie inside.  A fetch of the input block fills the rows inside the array and leaves
  the others at words nothing names; a write-back of the output block writes the rows inside the array only.
  So the proof data names each of the two big staging buffers ON THE ROWS INSIDE THE ARRAY: the input's holds
  its block there; the output's holds the body's result there.  That the result on those rows does not depend
  on what the other rows of the input buffer hold is the hypothesis `Local`: it holds because every output row
  is computed from the same row of the input.
-/
import proofs.«115121_g2000306424445056_pallasbulk_1197_30_alg».proof.Proof.IdealBody
import Idealize.ShloMosaic.Lib.Pipeline.Frame
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A filler for the rows of a big staging buffer that lie past the array's end: nothing reads it. -/
def zfill : S28x256x196.Idx → Elt F .f32 := fun _ => Scalar.ofBits .f32 0#32

/-- The input block as a fetch leaves it, the rows past the array's end at `d`. -/
def xin (c : Dev nD) (t : Fin cfg0.N) (d : S28x256x196.Idx → Elt F .f32) : S28x256x196.Idx → Elt F .f32 :=
  win0_0.fill (grid0.coords t) d (iblk m c 0 t)

/-- The output buffer after the body at point `t`, when the input buffer's rows past the array's end held `d`. -/
def outAt (c : Dev nD) (t : Fin cfg0.N) (d : S28x256x196.Idx → Elt F .f32) : S28x256x196.Idx → Elt F .f32 :=
  outBlk (xin m c t d) (iblk m c 1 t) (iblk m c 2 t) (iblk m c 3 t) (iblk m c 4 t)

/-- ROW-LOCALITY: on the rows inside the array the body's result does not depend on the filler. -/
def Local : Prop := ∀ (c : Dev nD) (t : Fin cfg0.N) (d : S28x256x196.Idx → Elt F .f32),
  win0_5.cut (grid0.coords t) (outAt m c t d) = win0_5.cut (grid0.coords t) (outAt m c t zfill)

/-- The proof data on core `c`: the arrays as the region finds them; after the body each small input buffer at its
    block, the big input buffer at its block filled out with `zfill`, the output buffer at the body's result of
    those; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xin m c t zfill
    | ⟨1, _⟩ => iblk m c 1 t
    | ⟨2, _⟩ => iblk m c 2 t
    | ⟨3, _⟩ => iblk m c 3 t
    | ⟨4, _⟩ => iblk m c 4 t
    | ⟨5, _⟩ => outAt m c t zfill
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xin m c t zfill := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t zfill := by dsimp only [dats]

/-- The big input buffer is fetched at every point: the body finds its block on the rows inside the array and `d`
    on the others. -/
theorem before0_0 (c : Dev nD) (t : Fin cfg0.N) (d) : (dats m 0 c).before 0 t d = xin m c t d := by
  unfold Dat.before; rw [if_pos (fetch0_0 t)]; rfl
/-- Each small input buffer holds its block at every point, fetched there or not. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- The output buffer is written back at every point, so the body finds it at contents nothing names. -/
theorem before0_5 (c : Dev nD) (t : Fin cfg0.N) (d) : (dats m 0 c).before 5 t d = d :=
  (dats m 0 c).before_out_reset 5 rfl t (by
    by_cases h0 : t.val = 0
    · exact .inl h0
    · exact .inr ⟨h0, flush0_5 _⟩) d

/-- The library's body obligation at every point, from the body's run on whole buffers. -/
theorem body_obligation (hloc : Local m) (c : Dev nD) :
    BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before0_0 m c t d0, before0_1 m c t d1, before0_2 m c t d2, before0_3 m c t d3, before0_4 m c t d4,
    before0_5 m c t d5]
  iapply (sound_kernel (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (xin m c t d0) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  have hx : win0_0.fill (grid0.coords t) d0 (win0_0.cut (grid0.coords t) (xin m c t zfill)) = xin m c t d0 := by
    unfold xin; rw [Window.cut_fill]
  have ho : win0_5.fill (grid0.coords t) (outAt m c t d0) (win0_5.cut (grid0.coords t) (outAt m c t zfill))
      = outBlk (xin m c t d0) (iblk m c 1 t) (iblk m c 2 t) (iblk m c 3 t) (iblk m c 4 t) := by
    rw [← hloc c t d0, Window.fill_cut]; rfl
  isplitl [H0]
  · iexists d0
    rw [after0_0]
    change _ ⊢ owns (c : Thread nD τ) (st0_0 t) fullShare (win0_0.fill (grid0.coords t) d0 (win0_0.cut (grid0.coords t) (xin m c t zfill)))
    rw [hx]; try iexact H0
  isplitl [H1]; · rw [after0_1]; iexact H1
  isplitl [H2]; · rw [after0_2]; iexact H2
  isplitl [H3]; · rw [after0_3]; iexact H3
  isplitl [H4]; · rw [after0_4]; iexact H4
  · iexists (outAt m c t d0)
    rw [after0_5]
    change _ ⊢ owns (c : Thread nD τ) (st0_5 t) fullShare (win0_5.fill (grid0.coords t) (outAt m c t d0) (win0_5.cut (grid0.coords t) (outAt m c t zfill)))
    rw [ho]; try iexact H5

set_option backward.isDefEq.respectTransparency.types false in
/-- Every weakly fair execution of @main terminates; every array of the pipeline ends at what the library
    computes from the proof data, every other buffer as the lines after the region leave it. -/
theorem run_main (hloc : Local m) : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m hloc c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's post, from the run. -/
theorem frame (hloc : Local m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ hloc)

end Cert.KernelIdeal.Hand

end
-- ==== Proof.GateSpec.lean ====
/-
  The squeeze-and-excitation gate as one function on the extended reals, and the two laws that join its two
  transcriptions.

  For one image (one batch row) `xr : channel → pixel → EReal` the gate of channel `c` is

      gate c = tanh ( Σ_r  lrelu (hid r) · w2 (c, r)  +  b2 c ),
      hid r  = Σ_c' (Σ_k xr c' k) · (w1 (r, c') · κ)  +  b1 r,
      lrelu h = max h 0 + s · min h 0,

  with `κ` the word of 1/196 and `s` the word of 0.2, both kept as the words they are.  The output at
  `(c, k)` is `xr c k · gate c`.  The gate of an image reads that image's row alone: this is what lets a
  block that overhangs the array be handled row by row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Gate

open Idealize.ShloMosaic Idealize.ShloMosaic.ValueIdx

/-- The word of 1/196, read at the extended reals. -/
def kap : EReal := Ideal.ofBits .f32 0x3BA72F05#32
/-- The word of 0.2, read at the extended reals. -/
def slope : EReal := Ideal.ofBits .f32 0x3E4CCCCD#32

/-- The leaky rectifier written with a maximum and a minimum. -/
def lrelu (h : EReal) : EReal := max h 0 + slope * min h 0

/-- The hidden layer before its rectifier, for one image. -/
def hid (xr : Fin 256 → Fin 196 → EReal) (w1 : (⟨2, ![16, 256]⟩ : Shape).Idx → EReal)
    (b1 : (⟨2, ![1, 16]⟩ : Shape).Idx → EReal) (r : Fin 16) : EReal :=
  (∑ c : Fin 256, (∑ k : Fin 196, xr c k) * (w1 (ix2 r c) * kap)) + b1 (ix2 0 r)

/-- The gate of one image at channel `c`. -/
def gate (xr : Fin 256 → Fin 196 → EReal) (w1 : (⟨2, ![16, 256]⟩ : Shape).Idx → EReal)
    (b1 : (⟨2, ![1, 16]⟩ : Shape).Idx → EReal) (w2 : (⟨2, ![256, 16]⟩ : Shape).Idx → EReal)
    (b2 : (⟨2, ![1, 256]⟩ : Shape).Idx → EReal) (c : Fin 256) : EReal :=
  Ideal.tanh ((∑ r : Fin 16, lrelu (hid xr w1 b1 r) * w2 (ix2 c r)) + b2 (ix2 0 c))

/-- The rectifier written as a choice on the sign is the same function: where `0 < h` the minimum is `0`
    and the maximum is `h`; elsewhere the maximum is `0` and the minimum is `h`.  No case needs `h` finite. -/
theorem lrelu_eq_ite (h : EReal) : (if 0 < h then h else slope * h) = lrelu h := by
  unfold lrelu
  by_cases hp : 0 < h
  · rw [if_pos hp, max_eq_left hp.le, min_eq_right hp.le, mul_zero, add_zero]
  · rw [if_neg hp, max_eq_right (not_lt.mp hp), min_eq_left (not_lt.mp hp), zero_add]

/-- The hidden layer with the factor `κ` taken on the pooled sum instead of on the weight: products on the
    extended reals commute and associate, at the infinities too. -/
theorem hid_assoc (xr : Fin 256 → Fin 196 → EReal) (w1 : (⟨2, ![16, 256]⟩ : Shape).Idx → EReal)
    (b1 : (⟨2, ![1, 16]⟩ : Shape).Idx → EReal) (r : Fin 16) :
    (∑ c : Fin 256, ((∑ k : Fin 196, xr c k) * kap) * w1 (ix2 r c)) + b1 (ix2 0 r) = hid xr w1 b1 r := by
  unfold hid
  refine congrArg (· + b1 (ix2 0 r)) (Finset.sum_congr rfl fun c _ => ?_)
  rw [mul_assoc, mul_comm kap]

/-- The whole result array `[256, 256, 196]`: each entry is the input there times the gate of its image at its
    channel. -/
def Gout (x : (⟨3, ![256, 256, 196]⟩ : Shape).Idx → EReal) (w1 : (⟨2, ![16, 256]⟩ : Shape).Idx → EReal)
    (b1 : (⟨2, ![1, 16]⟩ : Shape).Idx → EReal) (w2 : (⟨2, ![256, 16]⟩ : Shape).Idx → EReal)
    (b2 : (⟨2, ![1, 256]⟩ : Shape).Idx → EReal) : (⟨3, ![256, 256, 196]⟩ : Shape).Idx → EReal :=
  fun i => x i * gate (fun c' k' => x (ix3 (i 0) c' k')) w1 b1 w2 b2 (i 1)

/-- A block's entry is the array's entry when the block's row is the array's row: the gate reads that row alone. -/
theorem row_eq_Gout (X : (⟨3, ![28, 256, 196]⟩ : Shape).Idx → EReal) (x : (⟨3, ![256, 256, 196]⟩ : Shape).Idx → EReal)
    (w1 : (⟨2, ![16, 256]⟩ : Shape).Idx → EReal) (b1 : (⟨2, ![1, 16]⟩ : Shape).Idx → EReal)
    (w2 : (⟨2, ![256, 16]⟩ : Shape).Idx → EReal) (b2 : (⟨2, ![1, 256]⟩ : Shape).Idx → EReal)
    (p : Fin 28) (b : Fin 256) (hrow : ∀ c' k', X (ix3 p c' k') = x (ix3 b c' k')) (c : Fin 256) (k : Fin 196) :
    X (ix3 p c k) * gate (fun c' k' => X (ix3 p c' k')) w1 b1 w2 b2 c = Gout x w1 b1 w2 b2 (ix3 b c k) := by
  unfold Gout
  rw [hrow c k, show (fun c' k' => X (ix3 p c' k')) = fun c' k' => x (ix3 b c' k') from funext fun c' => funext fun k' => hrow c' k']

end Cert.Gate

end
-- ==== Proof.LibTrailingUnit.lean ====
/-
  A trailing unit axis, read at coordinates.

  Two layout facts about arrays of any element type, stated over the literal-size index constructors:
  a matrix `[a, b]` recast as `[a, b, 1]` is, at `(i, j, 0)`, the matrix at `(i, j)`; and an array `[a, b, 1]`
  broadcast to `[a, b, c]` is, at `(i, j, k)`, the array at `(i, j, 0)`.  Together they read a per-row-and-column
  factor spread along a third axis (`g[:, :, None]` against an `[a, b, c]` array).
-/
import Idealize.ShloMosaic.Lib.ValueIdx
import Idealize.ShloMosaic.Lib.ValueLayout
import Idealize.ShloMosaic.Lib.Pipeline.Value

noncomputable section

namespace Cert.LibTrailingUnit

open Idealize.ShloMosaic Idealize.ShloMosaic.ValueIdx

variable {α : Type}

/-- A matrix `[a, b]` recast with a trailing unit axis, read at `(i, j, 0)`, is the matrix at `(i, j)`. -/
theorem cast_trailing_unit {a b : ℕ} (v : (⟨2, ![a, b]⟩ : Shape).Idx → α)
    (h : (⟨2, ![a, b]⟩ : Shape).ShapeCasts ⟨3, ![a, b, 1]⟩) (i : Fin a) (j : Fin b) :
    shapeCast ⟨3, ![a, b, 1]⟩ v h (ix3 i j 0) = v (ix2 i j) :=
  shapeCast_apply v h (ix3 i j 0) (ix2 i j) (by
    rw [Shape.rowMajor_val_two, Shape.rowMajor_val_three]
    show i.val * b + j.val = (i.val * b + j.val) * 1 + 0
    omega)

/-- An array `[a, b, 1]` broadcast along its last axis to `[a, b, c]`, read at `(i, j, k)`, is the array at
    `(i, j, 0)` (`a` and `b` not themselves `1`, so that only the last axis is spread). -/
theorem bcast_trailing_unit {a b c : ℕ} (ha : a ≠ 1) (hb : b ≠ 1) (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j 0) :=
  broadcastTo_apply v h (ix3 i j k) (ix3 i j 0) (fun ax => match ax with
    | ⟨0, _⟩ => by show i.val = (if a = 1 then 0 else i.val); rw [if_neg ha]
    | ⟨1, _⟩ => by show j.val = (if b = 1 then 0 else j.val); rw [if_neg hb]
    | ⟨2, _⟩ => by show 0 = (if (1 : ℕ) = 1 then 0 else k.val); rw [if_pos rfl])

end Cert.LibTrailingUnit

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibCoordinateLayout.lean ====
/-
  Layout operations, one-axis sums and total sums read at coordinates.

  General facts, independent of any program, for reading a vector expression at an index written by its
  coordinates:

  * a shape cast that inserts unit axes — `[a, b] → [a, 1, b]`, `[a, b] → [a, b, 1, 1]`, `[a, b] → [1, 1, a, b]`,
    `[a] → [a, 1]` — reads the operand at the index with the unit coordinates removed;
  * a broadcast along unit axes — `[1, b, c] → [a, b, c]`, `[a, 1, c] → [a, b, c]`, `[a, b, 1, 1] → [a, b, c, d]`,
    `[1, 1, c, d] → [a, b, c, d]` — reads the operand at `0` on those axes;
  * a sum of extended reals along one axis — the last axis of a rank-3 or rank-4 array, either axis of a matrix
    with a unit column — is the `Fin`-indexed sum of the source with the coordinate inserted;
  * a square root, exponential, `log (1 + ·)` and absolute value of a vector of extended reals act element by element;
  * a sum over a rank-4 index set in a commutative monoid is the fourfold sum over the coordinates.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibCoordinateLayout

open Idealize.ShloMosaic Idealize.ShloMosaic.ValueIdx

variable {α : Type}

/-! ## Shape casts that insert unit axes, read at coordinates

A shape cast keeps the row-major position. Inserting axes of extent one multiplies the position by one and adds
zero, so the element at the longer index is the element at the index with the unit coordinates removed. -/

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1, 1]` reads, at `(i, j, u, w)`, the operand at `(i, j)`. -/
theorem shapeCast_ab_ab11_apply {a b : ℕ} (x : (⟨2, ![a, b]⟩ : Shape).Idx → α)
    (h : (⟨2, ![a, b]⟩ : Shape).ShapeCasts ⟨4, ![a, b, 1, 1]⟩) (i : Fin a) (j : Fin b) (u w : Fin 1) :
    shapeCast ⟨4, ![a, b, 1, 1]⟩ x h (ix4 i j u w) = x (ix2 i j) :=
  shapeCast_apply x h _ _ (by
    have hu : u.val = 0 := by omega
    have hw : w.val = 0 := by omega
    rw [Shape.rowMajor_val_four, Shape.rowMajor_val_two]
    show i.val * b + j.val = ((i.val * b + j.val) * 1 + u.val) * 1 + w.val
    simp only [hu, hw, Nat.mul_one, Nat.add_zero])

/-- An `[a, b]` array cast to `[1, 1, a, b]` reads, at `(u, w, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw, Nat.zero_mul, Nat.zero_add])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Broadcasts along unit axes, read at coordinates

A broadcast reads the operand at the same coordinates, with `0` on each axis where the operand has extent one. -/

/-- A `[1, b, c]` array broadcast to `[a, b, c]` reads, at `(i, j, k)`, the operand at `(0, j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, 1, c]` array broadcast to `[a, b, c]` reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- An `[a, b, 1, 1]` array broadcast to `[a, b, c, d]` reads, at `(i, j, k, l)`, the operand at `(i, j, 0, 0)`. -/
theorem broadcastTo_ab11_abcd_apply {a b c d : ℕ} (x : (⟨4, ![a, b, 1, 1]⟩ : Shape).Idx → α)
    (h : (⟨4, ![a, b, 1, 1]⟩ : Shape).Broadcasts ⟨4, ![a, b, c, d]⟩) (i : Fin a) (j : Fin b) (k : Fin c) (l : Fin d) :
    broadcastTo ⟨4, ![a, b, c, d]⟩ x h (ix4 i j k l) = x (ix4 i j (0 : Fin 1) (0 : Fin 1)) := by
  refine broadcastTo_apply x h (ix4 i j k l) (ix4 i j (0 : Fin 1) (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl
  | ⟨3, _⟩ => rfl

/-- A `[1, 1, c, d]` array broadcast to `[a, b, c, d]` reads, at `(i, j, k, l)`, the operand at `(0, 0, k, l)`. -/
theorem broadcastTo_11cd_abcd_apply {a b c d : ℕ} (x : (⟨4, ![1, 1, c, d]⟩ : Shape).Idx → α)
    (h : (⟨4, ![1, 1, c, d]⟩ : Shape).Broadcasts ⟨4, ![a, b, c, d]⟩) (i : Fin a) (j : Fin b) (k : Fin c) (l : Fin d) :
    broadcastTo ⟨4, ![a, b, c, d]⟩ x h (ix4 i j k l) = x (ix4 (0 : Fin 1) (0 : Fin 1) k l) := by
  refine broadcastTo_apply x h (ix4 i j k l) (ix4 (0 : Fin 1) (0 : Fin 1) k l) fun ax => ?_
  match ax with
  | ⟨0, _⟩ => rfl
  | ⟨1, _⟩ => rfl
  | ⟨2, _⟩ =>
    show k.val = if c = 1 then 0 else k.val
    split
    · have := k.isLt; omega
    · rfl
  | ⟨3, _⟩ =>
    show l.val = if d = 1 then 0 else l.val
    split
    · have := l.isLt; omega
    · rfl

/-! ## Sums along one axis, read at coordinates

A sum along one axis, at an index of the result, is the sum over that axis's coordinate of the source at the
result's index with the coordinate inserted. The accumulator is the zero word, the sum's neutral element. -/

/-- The sum of an `[a, b, c]` array along its last axis, at `(i, j)`. -/
theorem sum3_axis2_apply {a b c : ℕ} (src : FVec Ideal ⟨3, ![a, b, c]⟩ .f32)
    (h : Shape.Reduces ⟨3, ![a, b, c]⟩ [2] ⟨2, ![a, b]⟩) (hφ : FKind.Formats .f32)
    (hacc : (0x00000000#32 : BitVec FTy.f32.bits) = 0x00000000#32) (i : Fin a) (j : Fin b) :
    multiReduction .add [2] ⟨2, ![a, b]⟩ src 0x00000000#32 h hφ hacc (ix2 i j) = ∑ k : Fin c, src (ix3 i j k) :=
  (Ideal.multiReduction_add_single src 0x00000000#32 h hφ hacc (ix2 i j)).trans
    (Finset.sum_congr rfl fun k _ => congrArg src (funext fun ax => Fin.ext (by
      match ax with
      | ⟨0, _⟩ => rfl
      | ⟨1, _⟩ => rfl
      | ⟨2, _⟩ => rfl)))

/-- The sum of an `[a, b, c, d]` array along its last axis, at `(i, j, k)`. -/
theorem sum4_axis3_apply {a b c d : ℕ} (src : FVec Ideal ⟨4, ![a, b, c, d]⟩ .f32)
    (h : Shape.Reduces ⟨4, ![a, b, c, d]⟩ [3] ⟨3, ![a, b, c]⟩) (hφ : FKind.Formats .f32)
    (hacc : (0x00000000#32 : BitVec FTy.f32.bits) = 0x00000000#32) (i : Fin a) (j : Fin b) (k : Fin c) :
    multiReduction .add [3] ⟨3, ![a, b, c]⟩ src 0x00000000#32 h hφ hacc (ix3 i j k) = ∑ l : Fin d, src (ix4 i j k l) :=
  (Ideal.multiReduction_add_single src 0x00000000#32 h hφ hacc (ix3 i j k)).trans
    (Finset.sum_congr rfl fun l _ => congrArg src (funext fun ax => Fin.ext (by
      match ax with
      | ⟨0, _⟩ => rfl
      | ⟨1, _⟩ => rfl
      | ⟨2, _⟩ => rfl
      | ⟨3, _⟩ => rfl)))

/-- The sum of an `[a, b]` array along its rows' entries, at `i`. -/
theorem sum2_axis1_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec FTy.f32.bits) = 0x00000000#32) (i : Fin a) :
    multiReduction .add [1] ⟨1, ![a]⟩ src 0x00000000#32 h hφ hacc (ix1 i) = ∑ j : Fin b, src (ix2 i j) :=
  (Ideal.multiReduction_add_single src 0x00000000#32 h hφ hacc (ix1 i)).trans
    (Finset.sum_congr rfl fun j _ => congrArg src (funext fun ax => Fin.ext (by
      match ax with
      | ⟨0, _⟩ => rfl
      | ⟨1, _⟩ => rfl)))

/-- The sum of a column `[a, 1]` down its rows, at the one index of the result. -/
theorem sum2_axis0_apply {a : ℕ} (src : FVec Ideal ⟨2, ![a, 1]⟩ .f32)
    (h : Shape.Reduces ⟨2, ![a, 1]⟩ [0] ⟨1, ![1]⟩) (hφ : FKind.Formats .f32)
    (hacc : (0x00000000#32 : BitVec FTy.f32.bits) = 0x00000000#32) (u : Fin 1) :
    multiReduction .add [0] ⟨1, ![1]⟩ src 0x00000000#32 h hφ hacc (ix1 u) = ∑ i : Fin a, src (ix2 i u) :=
  (Ideal.multiReduction_add_single src 0x00000000#32 h hφ hacc (ix1 u)).trans
    (Finset.sum_congr rfl fun i _ => congrArg src (funext fun ax => Fin.ext (by
      match ax with
      | ⟨0, _⟩ => rfl
      | ⟨1, _⟩ => rfl)))

/-! ## Pointwise operations at an index -/

section Pointwise
variable {s : Shape}

/-- A square root at an index is the square root of the element … -/
theorem sqrt_apply (a : FVec Ideal s .f32) (i : s.Idx) : sqrt a i = Ideal.sqrt (a i) := rfl
/-- … an exponential the exponential … -/
theorem exp_apply (a : FVec Ideal s .f32) (i : s.Idx) : exp a i = Ideal.exp (a i) := rfl
/-- … `log (1 + ·)` likewise … -/
theorem log1p_apply (a : FVec Ideal s .f32) (i : s.Idx) : log1p a i = Ideal.log1p (a i) := rfl
/-- … and an absolute value the larger of the element and its negation. -/
theorem absf_apply (a : FVec Ideal s .f32) (i : s.Idx) : absf a i = max (a i) (-(a i)) := rfl

end Pointwise

/-! ## A sum over a rank-4 index set as a fourfold sum

A rank-4 index set is the product of its four coordinate ranges, so a sum over it is the fourfold sum over the
coordinates; on the extended reals addition is a commutative monoid and no finiteness is asked. -/

/-- A rank-4 index is its four coordinates. -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- So a sum over a rank-4 index set is the fourfold sum over the coordinates. -/
theorem sum_idx4 {M : Type*} [AddCommMonoid M] {n0 n1 n2 n3 : Nat}
    (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

end Cert.LibCoordinateLayout

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.IdealPay.lean ====
/-
  The body's one stored value, read at an index, over the extended reals.
-/
import proofs.«115121_g2000306424445056_pallasbulk_1197_30_alg».proof.Proof.Gen.KernelIdeal.Skeleton
import proofs.«115121_g2000306424445056_pallasbulk_1197_30_alg».proof.Proof.GateSpec
import proofs.«115121_g2000306424445056_pallasbulk_1197_30_alg».proof.Proof.LibTrailingUnit
import proofs.«115121_g2000306424445056_pallasbulk_1197_30_alg».proof.Proof.LibPlainMatmul
import proofs.«115121_g2000306424445056_pallasbulk_1197_30_alg».proof.Proof.LibCoordinateLayout
import proofs.«115121_g2000306424445056_pallasbulk_1197_30_alg».proof.Proof.LibRows

set_option maxRecDepth 16384

noncomputable section

open scoped BigOperators

namespace Cert.KernelIdeal.Pay

open Cert.KernelIdeal Cert.KernelIdeal.Gen Cert.Gate Cert.LibTrailingUnit
open Idealize.ShloMosaic Idealize.ShloMosaic.ValueIdx

/-- The hyperbolic tangent of a vector, at an index, is that of the element. -/
theorem tanh_apply {s : Shape} (a : FVec Ideal s .f32) (i : s.Idx) : tanh a i = Ideal.tanh (a i) := rfl

set_option backward.isDefEq.respectTransparency.types false in
/-- The stored value at batch row `p`, channel `c`, pixel `k` of the block: the input there times the gate of
    row `p` at channel `c` — a function of row `p` of the input block alone.  The two matrix products are plain sums
    over the contracted axis, the pooling a sum over the pixels, the weights read transposed. -/
theorem pay_apply (X : Vec Ideal S28x256x196 .f32) (W1 : Vec Ideal S16x256 .f32) (W2 : Vec Ideal S256x16 .f32)
    (B1 : Vec Ideal S1x16 .f32) (B2 : Vec Ideal S1x256 .f32) (p : Fin 28) (c : Fin 256) (k : Fin 196) :
    k0_pay1 (F := Ideal) X W1 W2 B1 B2 (ix3 p c k)
      = X (ix3 p c k) * gate (fun c' k' => X (ix3 p c' k')) W1 B1 W2 B2 c := by
  have hT1 : ∀ (j : Fin 256) (i : Fin 16),
      transpose S256x16 [1, 0] W1 transposes_S16x256_p1_0_S256x16 (ix2 j i) = W1 (ix2 i j) :=
    fun j i => transpose_ix2_apply W1 _ j i
  have hT2 : ∀ (j : Fin 16) (i : Fin 256),
      transpose S16x256 [1, 0] W2 transposes_S256x16_p1_0_S16x256 (ix2 j i) = W2 (ix2 i j) :=
    fun j i => transpose_ix2_apply W2 _ j i
  unfold k0_pay1
  simp only [shapeCast_self, mulf_apply, addf_apply, maximumf_apply, minimumf_apply, broadcast_apply, tanh_apply,
    bcast_trailing_unit (a := 28) (b := 256) (c := 196) (by decide) (by decide), cast_trailing_unit,
    Cert.Rows.bcast_row (m := 28) (n := 16) (by decide), Cert.Rows.bcast_row (m := 28) (n := 256) (by decide),
    Cert.LibPlainMatmul.matmul_zero_apply dot_S28x256_S256x16_S28x16_1_0_0_1_n_n rfl rfl rfl rfl rfl rfl,
    Cert.LibPlainMatmul.matmul_zero_apply dot_S28x16_S16x256_S28x256_1_0_0_1_n_n rfl rfl rfl rfl rfl rfl,
    Ideal.ofBits_def, Ideal.ofBits_zero_f32, hT1, hT2]
  generalize hY : multiReduction (F := Ideal) (s := S28x256x196) (φ := FTy.f32) FKind.add [2] S28x256 X (0x00000000#32) _ _ _ = Y
  have hS : ∀ j : Fin 256, Y (ix2 p j) = ∑ k' : Fin 196, X (ix3 p j k') := fun j => by
    rw [← hY]; exact Cert.LibCoordinateLayout.sum3_axis2_apply X _ _ _ p j
  simp only [hS, gate, hid, lrelu, kap, Cert.Gate.slope]

end Cert.KernelIdeal.Pay

end
-- ==== Proof.IdealValue.lean ====
/-
  The result of the idealized kernel program, as one function of its arguments.

  Point `t` of the grid writes back rows `28·t … 28·t + 27` of the result array, cut at row 256; the ten blocks
  cover the array.  On the rows inside the array the body's result is the input there times the gate of that row,
  whatever the input buffer held on its other rows; so every entry of the final array is `Gout` of the arrays
  the region found, and the program's result is that array reshaped.
-/
import proofs.«115121_g2000306424445056_pallasbulk_1197_30_alg».proof.Proof.IdealData
import proofs.«115121_g2000306424445056_pallasbulk_1197_30_alg».proof.Proof.IdealPay
import Idealize.ShloMosaic.Lib.StableHlo.Run

set_option maxRecDepth 16384

noncomputable section

open scoped BigOperators

namespace Cert.KernelIdeal.Hand

open Cert.KernelIdeal Cert.KernelIdeal.Gen Cert.Gate
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (m : (ℓ : Loc nD τ sig) → Buf (Elt Ideal) ℓ) (ρ : Dev nD → PrngReg)

/-! ## The schedule's index arithmetic, decided over the ten points -/

theorem idx_big : ∀ t : Fin cfg0.N,
    (win0_0.index t 0 = t.val ∧ win0_0.index t 1 = 0 ∧ win0_0.index t 2 = 0)
    ∧ (win0_5.index t 0 = t.val ∧ win0_5.index t 1 = 0 ∧ win0_5.index t 2 = 0) :=
  (by decide +kernel : ∀ t : Fin grid0.N,
    (win0_0.index t 0 = t.val ∧ win0_0.index t 1 = 0 ∧ win0_0.index t 2 = 0)
    ∧ (win0_5.index t 0 = t.val ∧ win0_5.index t 1 = 0 ∧ win0_5.index t 2 = 0))

theorem xs_big : ∀ t : Fin cfg0.N,
    (win0_0.xsize (grid0.coords t) 0 = min 28 (256 - 28 * t.val) ∧ win0_0.xsize (grid0.coords t) 1 = 256
      ∧ win0_0.xsize (grid0.coords t) 2 = 196)
    ∧ (win0_5.xsize (grid0.coords t) 0 = min 28 (256 - 28 * t.val) ∧ win0_5.xsize (grid0.coords t) 1 = 256
      ∧ win0_5.xsize (grid0.coords t) 2 = 196) :=
  (by decide +kernel : ∀ t : Fin grid0.N,
    (win0_0.xsize (grid0.coords t) 0 = min 28 (256 - 28 * t.val) ∧ win0_0.xsize (grid0.coords t) 1 = 256
      ∧ win0_0.xsize (grid0.coords t) 2 = 196)
    ∧ (win0_5.xsize (grid0.coords t) 0 = min 28 (256 - 28 * t.val) ∧ win0_5.xsize (grid0.coords t) 1 = 256
      ∧ win0_5.xsize (grid0.coords t) 2 = 196))

theorem idx_small : ∀ t : Fin cfg0.N,
    (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0) :=
  (by decide +kernel : ∀ t : Fin grid0.N,
    (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0))

/-! ## The blocks, read off the arrays -/

/-- The weights' and biases' blocks are their whole arrays. -/
theorem iblk1_eq (c : Dev nD) (t : Fin cfg0.N) (y : S16x256.Idx) : iblk m c 1 t y = V m c main_arg1 y := by
  show V m c main_arg1 (((cfg0.win 1).blk t).view.emb y) = V m c main_arg1 y
  refine congrArg _ (funext fun a => Fin.ext ?_)
  have h := (idx_small t).1
  match a with
  | ⟨0, _⟩ => show win0_1.index t 0 * 16 + 1 * (y 0).val = (y 0).val; rw [h.1]; omega
  | ⟨1, _⟩ => show win0_1.index t 1 * 256 + 1 * (y 1).val = (y 1).val; rw [h.2]; omega
theorem iblk2_eq (c : Dev nD) (t : Fin cfg0.N) (y : S1x16.Idx) : iblk m c 2 t y = V m c main_v1 y := by
  show V m c main_v1 (((cfg0.win 2).blk t).view.emb y) = V m c main_v1 y
  refine congrArg _ (funext fun a => Fin.ext ?_)
  have h := (idx_small t).2.1
  match a with
  | ⟨0, _⟩ => show win0_2.index t 0 * 1 + 1 * (y 0).val = (y 0).val; rw [h.1]; omega
  | ⟨1, _⟩ => show win0_2.index t 1 * 16 + 1 * (y 1).val = (y 1).val; rw [h.2]; omega
theorem iblk3_eq (c : Dev nD) (t : Fin cfg0.N) (y : S256x16.Idx) : iblk m c 3 t y = V m c main_arg3 y := by
  show V m c main_arg3 (((cfg0.win 3).blk t).view.emb y) = V m c main_arg3 y
  refine congrArg _ (funext fun a => Fin.ext ?_)
  have h := (idx_small t).2.2.1
  match a with
  | ⟨0, _⟩ => show win0_3.index t 0 * 256 + 1 * (y 0).val = (y 0).val; rw [h.1]; omega
  | ⟨1, _⟩ => show win0_3.index t 1 * 16 + 1 * (y 1).val = (y 1).val; rw [h.2]; omega
theorem iblk4_eq (c : Dev nD) (t : Fin cfg0.N) (y : S1x256.Idx) : iblk m c 4 t y = V m c main_v2 y := by
  show V m c main_v2 (((cfg0.win 4).blk t).view.emb y) = V m c main_v2 y
  refine congrArg _ (funext fun a => Fin.ext ?_)
  have h := (idx_small t).2.2.2
  match a with
  | ⟨0, _⟩ => show win0_4.index t 0 * 1 + 1 * (y 0).val = (y 0).val; rw [h.1]; omega
  | ⟨1, _⟩ => show win0_4.index t 1 * 256 + 1 * (y 1).val = (y 1).val; rw [h.2]; omega

/-- Row `p` of the big input buffer, when it lies inside the array, is row `28·t + p` of the array, whatever the
    filler. -/
theorem xin_row (c : Dev nD) (t : Fin cfg0.N) (d : S28x256x196.Idx → Elt Ideal .f32) (p : Fin 28) (b : Fin 256)
    (hp : p.val < win0_0.xsize (grid0.coords t) 0) (hb : b.val = t.val * 28 + p.val) (c' : Fin 256) (k' : Fin 196) :
    xin m c t d (ix3 p c' k') = V m c main_v0 (ix3 b c' k') := by
  have hx := (xs_big t).1
  have hi := (idx_big t).1
  have hmv : win0_0.moved (grid0.coords t) (ix3 p c' k') = true :=
    (win0_0.moved_iff (grid0.coords t) _).mpr fun a => match a with
      | ⟨0, _⟩ => hp
      | ⟨1, _⟩ => by show c'.val < win0_0.xsize (grid0.coords t) 1; rw [hx.2.1]; exact c'.isLt
      | ⟨2, _⟩ => by show k'.val < win0_0.xsize (grid0.coords t) 2; rw [hx.2.2]; exact k'.isLt
  unfold xin Window.fill
  rw [dif_pos hmv]
  show V m c main_v0 (((cfg0.win 0).blk t).view.emb _) = V m c main_v0 (ix3 b c' k')
  refine congrArg _ (funext fun a => Fin.ext ?_)
  match a with
  | ⟨0, _⟩ => show win0_0.index t 0 * 28 + 1 * p.val = b.val; rw [hi.1, hb]; omega
  | ⟨1, _⟩ => show win0_0.index t 1 * 256 + 1 * c'.val = c'.val; rw [hi.2.1]; omega
  | ⟨2, _⟩ => show win0_0.index t 2 * 196 + 1 * k'.val = k'.val; rw [hi.2.2]; omega

/-- The result array of the region, entry by entry, from the arrays the region finds. -/
def Gfin (c : Dev nD) : S256x256x196.Idx → EReal :=
  Gout (V m c main_v0) (V m c main_arg1) (V m c main_v1) (V m c main_arg3) (V m c main_v2)

/-- What point `t` writes back — the output buffer's rows inside the array — is block `t` of `Gfin`, whatever
    the input buffer held past the array's end. -/
theorem cut_outAt (c : Dev nD) (t : Fin cfg0.N) (d : S28x256x196.Idx → Elt Ideal .f32) :
    win0_5.cut (grid0.coords t) (outAt m c t d) = (win0_5.blk t).view.read (Elt Ideal) (Gfin m c) := by
  funext y
  have hx := xs_big t
  have hi := (idx_big t).2
  have hy0 : (y 0).val < win0_5.xsize (grid0.coords t) 0 := (y 0).isLt
  have hy1 : (y 1).val < win0_5.xsize (grid0.coords t) 1 := (y 1).isLt
  have hy2 : (y 2).val < win0_5.xsize (grid0.coords t) 2 := (y 2).isLt
  rw [hx.2.1] at hy0; rw [hx.2.2.1] at hy1; rw [hx.2.2.2] at hy2
  have ht : t.val < 10 := t.isLt
  let p : Fin 28 := ⟨(y 0).val, by omega⟩
  let c1 : Fin 256 := ⟨(y 1).val, hy1⟩
  let k1 : Fin 196 := ⟨(y 2).val, hy2⟩
  let b : Fin 256 := ⟨t.val * 28 + (y 0).val, by omega⟩
  have ey : win0_5.xinj (grid0.coords t) y = ix3 p c1 k1 := funext fun a => Fin.ext (by
    match a with
    | ⟨0, _⟩ => rfl
    | ⟨1, _⟩ => rfl
    | ⟨2, _⟩ => rfl)
  have ee : (win0_5.blk t).view.emb y = ix3 b c1 k1 := funext fun a => Fin.ext (by
    match a with
    | ⟨0, _⟩ => show win0_5.index t 0 * 28 + 1 * (y 0).val = t.val * 28 + (y 0).val; rw [hi.1]; omega
    | ⟨1, _⟩ => show win0_5.index t 1 * 256 + 1 * (y 1).val = (y 1).val; rw [hi.2.1]; omega
    | ⟨2, _⟩ => show win0_5.index t 2 * 196 + 1 * (y 2).val = (y 2).val; rw [hi.2.2]; omega)
  show outAt m c t d (win0_5.xinj (grid0.coords t) y) = Gfin m c ((win0_5.blk t).view.emb y)
  rw [ey, ee]
  unfold outAt
  rw [outBlk_eq, Cert.KernelIdeal.Pay.pay_apply]
  have e1 : (iblk m c 1 t : S16x256.Idx → EReal) = V m c main_arg1 := funext (iblk1_eq m c t)
  have e2 : (iblk m c 2 t : S1x16.Idx → EReal) = V m c main_v1 := funext (iblk2_eq m c t)
  have e3 : (iblk m c 3 t : S256x16.Idx → EReal) = V m c main_arg3 := funext (iblk3_eq m c t)
  have e4 : (iblk m c 4 t : S1x256.Idx → EReal) = V m c main_v2 := funext (iblk4_eq m c t)
  rw [e1, e2, e3, e4]
  exact row_eq_Gout _ _ _ _ _ _ p b
    (fun c' k' => xin_row m c t d p b (by show (y 0).val < _; rw [hx.1.1]; omega) rfl c' k') c1 k1

/-- Every output row is computed from the same row of the input. -/
theorem local_ : Local m := fun c t d => (cut_outAt m c t d).trans (cut_outAt m c t zfill).symm

end Cert.KernelIdeal.Hand

end
-- ==== Proof.ResultSpec.lean ====
/-
  The program's result as one function of its five arguments, and two small facts the reference's transcription
  needs: a comparison with zero followed by a choice is an `if` on the sign, and a transposed matrix read with its
  coordinates exchanged is the matrix.
-/
import proofs.«115121_g2000306424445056_pallasbulk_1197_30_alg».proof.Proof.GateSpec

noncomputable section

open scoped BigOperators

namespace Cert.Gate

open Idealize.ShloMosaic Idealize.ShloMosaic.ValueIdx

/-- The result `[256, 256, 14, 14]` from the arguments: the image array flattened to `[256, 256, 196]`, the two
    biases recast as rows, the gated array `Gout` of them, recast to four axes. -/
def Result (a0 : (⟨4, ![256, 256, 14, 14]⟩ : Shape).Idx → EReal) (a1 : (⟨2, ![16, 256]⟩ : Shape).Idx → EReal)
    (a2 : (⟨1, ![16]⟩ : Shape).Idx → EReal) (a3 : (⟨2, ![256, 16]⟩ : Shape).Idx → EReal)
    (a4 : (⟨1, ![256]⟩ : Shape).Idx → EReal)
    (h0 : (⟨4, ![256, 256, 14, 14]⟩ : Shape).ShapeCasts ⟨3, ![256, 256, 196]⟩)
    (h2 : (⟨1, ![16]⟩ : Shape).ShapeCasts ⟨2, ![1, 16]⟩) (h4 : (⟨1, ![256]⟩ : Shape).ShapeCasts ⟨2, ![1, 256]⟩)
    (hr : (⟨3, ![256, 256, 196]⟩ : Shape).ShapeCasts ⟨4, ![256, 256, 14, 14]⟩) :
    (⟨4, ![256, 256, 14, 14]⟩ : Shape).Idx → EReal :=
  shapeCast ⟨4, ![256, 256, 14, 14]⟩
    (Gout (shapeCast ⟨3, ![256, 256, 196]⟩ a0 h0) a1 (shapeCast ⟨2, ![1, 16]⟩ a2 h2) a3 (shapeCast ⟨2, ![1, 256]⟩ a4 h4)) hr

/-- "Greater than zero" as a one-bit word, then a choice on that bit, is an `if` on the sign. -/
theorem select_ogt (h a b : EReal) : Scalar.select (Ideal.cmp .ogt h 0) a b = if 0 < h then a else b := by
  unfold Scalar.select Ideal.cmp
  by_cases hp : 0 < h <;> simp [hp]

/-- A matrix read with its two coordinates exchanged. -/
def swap {a b : ℕ} (w : (⟨2, ![a, b]⟩ : Shape).Idx → EReal) : (⟨2, ![b, a]⟩ : Shape).Idx → EReal :=
  fun j => w (ix2 (j 1) (j 0))

theorem swap_apply {a b : ℕ} (w : (⟨2, ![a, b]⟩ : Shape).Idx → EReal) (i : Fin b) (j : Fin a) :
    swap w (ix2 i j) = w (ix2 j i) := rfl

/-- The transpose of a matrix, read with its coordinates exchanged, is the matrix. -/
theorem swap_transpose {a b : ℕ} (w : (⟨2, ![a, b]⟩ : Shape).Idx → EReal)
    (h : (⟨2, ![a, b]⟩ : Shape).Transposes [1, 0] ⟨2, ![b, a]⟩) :
    swap (transpose ⟨2, ![b, a]⟩ [1, 0] w h) = w := by
  funext j
  obtain ⟨i, k, rfl⟩ : ∃ (i : Fin a) (k : Fin b), j = ix2 i k := ⟨j 0, j 1, eq_ix2 j⟩
  rw [swap_apply, transpose_ix2_apply]

end Cert.Gate

end
-- ==== Proof.IdealFinal.lean ====
/-
  The final contents of the idealized kernel program's result, as one function of its arguments.
-/
import proofs.«115121_g2000306424445056_pallasbulk_1197_30_alg».proof.Proof.IdealValue
import proofs.«115121_g2000306424445056_pallasbulk_1197_30_alg».proof.Proof.ResultSpec

set_option maxRecDepth 16384

noncomputable section

open scoped BigOperators

namespace Cert.KernelIdeal.Hand

open Cert.KernelIdeal Cert.KernelIdeal.Gen Cert.Gate
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (m : (ℓ : Loc nD τ sig) → Buf (Elt Ideal) ℓ) (ρ : Dev nD → PrngReg)

/-- What point `t` writes back is block `t` of `Gfin`. -/
theorem flushed_eq (c : Dev nD) (t : Fin cfg0.N) :
    (dats m 0 c).flushed 5 t = ((cfg0.win 5).blk t).view.read (Elt Ideal) (Gfin m c) := by
  show (cfg0.win 5).cut (grid0.coords t) ((dats m 0 c).after 5 t) = _
  rw [after0_5]; exact cut_outAt m c t zfill

/-- An index of the result array lies in block `t` iff each coordinate lies in the block's part inside the array. -/
theorem mem_blk5 (t : Fin cfg0.N) (i : S256x256x196.Idx) :
    i ∈ ((cfg0.win 5).blk t).view.set ↔ ∀ a, win0_5.index t a * win0_5.size a ≤ (i a).val
      ∧ (i a).val < win0_5.index t a * win0_5.size a + win0_5.xsize (grid0.coords t) a := by
  show i ∈ ((View.whole main_v3).slice (win0_5.rect t)).set ↔ _
  rw [View.set_slice_whole, Rect.mem_set_unit]

/-- Row `r` of the array lies in the block of point `r / 28`: the ten blocks cover the array. -/
theorem cover5 (i : S256x256x196.Idx) :
    ∃ t : Fin cfg0.N, (cfg0.win 5).flush t = true ∧ i ∈ ((cfg0.win 5).blk t).view.set := by
  have h0 : (i 0).val < 256 := (i 0).isLt
  have h1 : (i 1).val < 256 := (i 1).isLt
  have h2 : (i 2).val < 196 := (i 2).isLt
  have hN : cfg0.N = 10 := N_0
  let t : Fin cfg0.N := ⟨(i 0).val / 28, by rw [hN]; omega⟩
  have ht : t.val = (i 0).val / 28 := rfl
  have hx := (xs_big t).2
  have hi := (idx_big t).2
  refine ⟨t, flush0_5 t, (mem_blk5 t i).mpr fun a => ?_⟩
  match a with
  | ⟨0, _⟩ =>
    show win0_5.index t 0 * 28 ≤ (i 0).val ∧ (i 0).val < win0_5.index t 0 * 28 + win0_5.xsize (grid0.coords t) 0
    rw [hi.1, hx.1, ht]; omega
  | ⟨1, _⟩ =>
    show win0_5.index t 1 * 256 ≤ (i 1).val ∧ (i 1).val < win0_5.index t 1 * 256 + win0_5.xsize (grid0.coords t) 1
    rw [hi.2.1, hx.2.1]; omega
  | ⟨2, _⟩ =>
    show win0_5.index t 2 * 196 ≤ (i 2).val ∧ (i 2).val < win0_5.index t 2 * 196 + win0_5.xsize (grid0.coords t) 2
    rw [hi.2.2, hx.2.2]; omega

/-- The result array of the region ends at `Gfin`. -/
theorem final5 (c : Dev nD) : (dats m 0 c).arrAt 5 cfg0.N = Gfin m c :=
  (dats m 0 c).arrAt_eq_of_cover 5 (Gfin m c) (fun t _ => flushed_eq m c t) (cover5)

end Cert.KernelIdeal.Hand

end
-- ==== Proof.IdealResult.lean ====
/-
  The idealized kernel program's run, with its result named: the array of `Result` of the five arguments.
-/
import proofs.«115121_g2000306424445056_pallasbulk_1197_30_alg».proof.Proof.IdealFinal

set_option maxRecDepth 16384

noncomputable section

open scoped BigOperators

namespace Cert.KernelIdeal.Hand

open Cert.KernelIdeal Cert.KernelIdeal.Gen Cert.Gate
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (m : (ℓ : Loc nD τ sig) → Buf (Elt Ideal) ℓ) (ρ : Dev nD → PrngReg)

/-! ## The arrays the region finds, from the arguments -/

/-- The image array, flattened by the host before the region. -/
theorem V_v0 (c : Dev nD) : (V m c main_v0 : S256x256x196.Idx → EReal)
    = shapeCast S256x256x196 (m ((c : Thread nD τ).loc main_arg0)) shapeCasts_S256x256x14x14_S256x256x196 := by
  show StableHlo.after hostOps0 (fun b => m (c, b)) (Proc.devRef .tc main_v0) = _
  after_results; rfl
/-- The first bias, recast as a row. -/
theorem V_v1 (c : Dev nD) : (V m c main_v1 : S1x16.Idx → EReal)
    = shapeCast S1x16 (m ((c : Thread nD τ).loc main_arg2)) shapeCasts_S16_S1x16 := by
  show StableHlo.after hostOps0 (fun b => m (c, b)) (Proc.devRef .tc main_v1) = _
  after_results; rfl
/-- The second bias, recast as a row. -/
theorem V_v2 (c : Dev nD) : (V m c main_v2 : S1x256.Idx → EReal)
    = shapeCast S1x256 (m ((c : Thread nD τ).loc main_arg4)) shapeCasts_S256_S1x256 := by
  show StableHlo.after hostOps0 (fun b => m (c, b)) (Proc.devRef .tc main_v2) = _
  after_results; rfl

/-- The region's result array, from the arguments. -/
theorem Gfin_eq (c : Dev nD) : Gfin m c
    = Gout (shapeCast S256x256x196 (m ((c : Thread nD τ).loc main_arg0)) shapeCasts_S256x256x14x14_S256x256x196)
        (m ((c : Thread nD τ).loc main_arg1))
        (shapeCast S1x16 (m ((c : Thread nD τ).loc main_arg2)) shapeCasts_S16_S1x16)
        (m ((c : Thread nD τ).loc main_arg3))
        (shapeCast S1x256 (m ((c : Thread nD τ).loc main_arg4)) shapeCasts_S256_S1x256) := by
  unfold Gfin
  rw [V_v0 m c, V_v1 m c, V_v2 m c, V_main_arg1 m c, V_main_arg3 m c]

/-- The program's result: the host reshapes the region's result array after the region. -/
theorem result_eq (c : Dev nD) : Pipeline.afterTail₀ cfgs (dats m) 0 (V0 m) [hostOps1] c main_v4
    = Result (m ((c : Thread nD τ).loc main_arg0)) (m ((c : Thread nD τ).loc main_arg1)) (m ((c : Thread nD τ).loc main_arg2))
        (m ((c : Thread nD τ).loc main_arg3)) (m ((c : Thread nD τ).loc main_arg4))
        shapeCasts_S256x256x14x14_S256x256x196 shapeCasts_S16_S1x16 shapeCasts_S256_S1x256 shapeCasts_S256x256x196_S256x256x14x14 := by
  have hw : Pipeline.withArrays (cfgs 0).spec c (V0 m c) (fun w => (dats m 0 c).arrAt w (cfgs 0).N) (Proc.devRef .tc main_v3)
      = Gfin m c :=
    (Pipeline.withArrays_arr spec0 launch0.win.arr_inj c _ _ 5).trans (final5 m c)
  unfold Pipeline.afterTail₀
  show StableHlo.after hostOps1 _ (Proc.devRef .tc main_v4) = _
  after_results
  unfold Result
  rw [← Gfin_eq m c]
  exact congrArg (fun A : S256x256x196.Idx → EReal => shapeCast S256x256x14x14 A shapeCasts_S256x256x196_S256x256x14x14) hw

/-- The run: every weakly fair execution terminates with the result at `Result` of the arguments and the arguments
    unchanged. -/
theorem run_value : θ_run defs (onTc (τ := τ) (main (F := Ideal))) ⟨m, fun _ => 0, ρ⟩ (fun r => ∀ c : Dev nD,
      r.2.mem ((c.tc : Thread nD τ).loc main_v4)
        = Result (m ((c : Thread nD τ).loc main_arg0)) (m ((c : Thread nD τ).loc main_arg1)) (m ((c : Thread nD τ).loc main_arg2))
            (m ((c : Thread nD τ).loc main_arg3)) (m ((c : Thread nD τ).loc main_arg4))
            shapeCasts_S256x256x14x14_S256x256x196 shapeCasts_S16_S1x16 shapeCasts_S256_S1x256 shapeCasts_S256x256x196_S256x256x14x14
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ (local_ m))

end Cert.KernelIdeal.Hand

end
-- ==== Proof.RefBody.lean ====
/-
  The body of the reference's fused squeeze-and-excitation kernel, run once on whole staging buffers.

  One grid point handles 28 batch rows.  The body reads the whole input block `x` (28 × 256 × 196) twice, the two
  weight matrices (already transposed by the host) and the two bias rows, and overwrites the whole output block
  with `x · g`, where the gate `g` (28 × 256) is computed from the row means of `x`.  Nothing else is touched: the five input buffers are left as
  they were found, and the output buffer ends holding one pure function of the five inputs.
-/
import proofs.«115121_g2000306424445056_pallasbulk_1197_30_alg».proof.Proof.Gen.ReferenceIdeal.Frame
import proofs.«115121_g2000306424445056_pallasbulk_1197_30_alg».proof.Proof.Gen.ReferenceIdeal.Skeleton
import Idealize.ShloMosaic.Lib.Pipeline.Value

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The rectangles the body's loads and its one store go through: each is its buffer's whole extent. -/
abbrev rX : Rect S28x256x196 := Rect.unit (s := S28x256x196) ![0, 0, 0] S28x256x196.size inb_S28x256x196_S28x256x196_0_0_0
abbrev rW1 : Rect S16x256 := Rect.unit (s := S16x256) ![0, 0] S16x256.size inb_S16x256_S16x256_0_0
abbrev rB1 : Rect S1x16 := Rect.unit (s := S1x16) ![0, 0] S1x16.size inb_S1x16_S1x16_0_0
abbrev rW2 : Rect S256x16 := Rect.unit (s := S256x16) ![0, 0] S256x16.size inb_S256x16_S256x16_0_0
abbrev rB2 : Rect S1x256 := Rect.unit (s := S1x256) ![0, 0] S1x256.size inb_S1x256_S1x256_0_0

/-- What the output buffer holds after the body, as a function of what the five input buffers hold: the one
    store's value over the loaded inputs. -/
def outBlk (x : Vec F S28x256x196 .f32) (w1 : Vec F S256x16 .f32) (b1 : Vec F S1x16 .f32) (w2 : Vec F S16x256 .f32)
    (b2 : Vec F S1x256 .f32) : Vec F S28x256x196 .f32 :=
  View.canon [⟨rX, k0_pay1 (View.ld x rX) (View.ld w1 rW2) (View.ld b1 rB1) (View.ld w2 rW1) (View.ld b2 rB2) (View.ld x rX)⟩]

/-- The one store covers the output buffer. -/
theorem cover_out (p0 : Vec F S28x256x196 .f32) (y : S28x256x196.Idx) :
    ∃ pc ∈ ([⟨rX, p0⟩] : List (View.Piece (Elt F) S28x256x196 .f32)), y ∈ pc.1.set :=
  View.cover_of_tiled [⟨rX, p0⟩] S28x256x196.size (by rfl) y

set_option maxHeartbeats 1000000 in
/-- The body on whole buffers: the inputs at `x, w1, b1, w2, b2` and the output at anything run to the inputs
    unchanged and the output at `outBlk` of them. -/
theorem sound_kernel (c : Dev nD) (E : Set ℕ) (i : grid0.Coords)
    (a1 : Memref sig .tc .vmem S28x256x196 .f32) (h1 : a1.IsWhole) (a2 : Memref sig .tc .vmem S256x16 .f32) (h2 : a2.IsWhole)
    (a3 : Memref sig .tc .vmem S1x16 .f32) (h3 : a3.IsWhole) (a4 : Memref sig .tc .vmem S16x256 .f32) (h4 : a4.IsWhole)
    (a5 : Memref sig .tc .vmem S1x256 .f32) (h5 : a5.IsWhole) (a6 : Memref sig .tc .vmem S28x256x196 .f32) (h6 : a6.IsWhole)
    (x : Vec F S28x256x196 .f32) (w1 : Vec F S256x16 .f32) (b1 : Vec F S1x16 .f32) (w2 : Vec F S16x256 .f32)
    (b2 : Vec F S1x256 .f32) (K : PUnit → sProp 𝕄) :
    iprop(owns (c : Thread nD τ) a1 fullShare x ∗ owns (c : Thread nD τ) a2 fullShare w1 ∗ owns (c : Thread nD τ) a3 fullShare b1
        ∗ owns (c : Thread nD τ) a4 fullShare w2 ∗ owns (c : Thread nD τ) a5 fullShare b2 ∗ (∃ d, owns (c : Thread nD τ) a6 fullShare d)
        ∗ (iprop(owns (c : Thread nD τ) a1 fullShare x ∗ owns (c : Thread nD τ) a2 fullShare w1 ∗ owns (c : Thread nD τ) a3 fullShare b1
            ∗ owns (c : Thread nD τ) a4 fullShare w2 ∗ owns (c : Thread nD τ) a5 fullShare b2
            ∗ owns (c : Thread nD τ) a6 fullShare (outBlk x w1 b1 w2 b2)) -∗ K ⟨⟩))
      ⊢ wp frame (wpE (defs₀ (F := F)) Variants.none c none) E (cc0__se_fused_kernel i a1 h1 a2 h2 a3 h3 a4 h4 a5 h5 a6 h6) K := by
  simp only [cc0__se_fused_kernel_eq_skeleton]; unfold cc0__se_fused_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

/-- The store writes the whole buffer and each load reads a whole buffer, so the output buffer ends at the stored
    value of the input buffers' contents themselves. -/
theorem outBlk_eq (x : Vec F S28x256x196 .f32) (w1 : Vec F S256x16 .f32) (b1 : Vec F S1x16 .f32) (w2 : Vec F S16x256 .f32)
    (b2 : Vec F S1x256 .f32) : outBlk x w1 b1 w2 b2 = k0_pay1 x w1 b1 w2 b2 x := by
  have hz3 : (![0, 0, 0] : Fin 3 → Nat) = fun _ => 0 := funext fun a => by fin_cases a <;> rfl
  have hz2 : (![0, 0] : Fin 2 → Nat) = fun _ => 0 := funext fun a => by fin_cases a <;> rfl
  unfold outBlk
  rw [View.canon_unit_zero hz3]
  simp only [View.ld_unit_zero (S := S28x256x196) hz3, View.ld_unit_zero (S := S16x256) hz2,
    View.ld_unit_zero (S := S256x16) hz2, View.ld_unit_zero (S := S1x16) hz2, View.ld_unit_zero (S := S1x256) hz2]

end Cert.ReferenceIdeal.Hand

end
-- ==== Proof.RefData.lean ====
/-
  The proof data of the one pipeline, the body's obligation at every grid point, and the run.

  The grid has ten points of 28 batch rows; 10 · 28 = 280 > 256, so the last block overhangs the array: of its
  28 rows only the first four lie inside.  A fetch of the input block fills the rows inside the array and leaves
  the others at words nothing names; a write-back of the output block writes the rows inside the array only.
  So the proof data names each of the two big staging buffers ON THE ROWS INSIDE THE ARRAY: the input's holds
  its block there; the output's holds the body's result there.  That the result on those rows does not depend
  on what the other rows of the input buffer hold is the hypothesis `Local`: it holds because every output row
  is computed from the same row of the input.
-/
import proofs.«115121_g2000306424445056_pallasbulk_1197_30_alg».proof.Proof.RefBody
import Idealize.ShloMosaic.Lib.Pipeline.Frame
import Idealize.ShloMosaic.Lib.Pipeline.FrameSuffix

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A filler for the rows of a big staging buffer that lie past the array's end: nothing reads it. -/
def zfill : S28x256x196.Idx → Elt F .f32 := fun _ => Scalar.ofBits .f32 0#32

/-- The input block as a fetch leaves it, the rows past the array's end at `d`. -/
def xin (c : Dev nD) (t : Fin cfg0.N) (d : S28x256x196.Idx → Elt F .f32) : S28x256x196.Idx → Elt F .f32 :=
  win0_0.fill (grid0.coords t) d (iblk m c 0 t)

/-- The output buffer after the body at point `t`, when the input buffer's rows past the array's end held `d`. -/
def outAt (c : Dev nD) (t : Fin cfg0.N) (d : S28x256x196.Idx → Elt F .f32) : S28x256x196.Idx → Elt F .f32 :=
  outBlk (xin m c t d) (iblk m c 1 t) (iblk m c 2 t) (iblk m c 3 t) (iblk m c 4 t)

/-- ROW-LOCALITY: on the rows inside the array the body's result does not depend on the filler. -/
def Local : Prop := ∀ (c : Dev nD) (t : Fin cfg0.N) (d : S28x256x196.Idx → Elt F .f32),
  win0_5.cut (grid0.coords t) (outAt m c t d) = win0_5.cut (grid0.coords t) (outAt m c t zfill)

/-- The proof data on core `c`: the arrays as the region finds them; after the body each small input buffer at its
    block, the big input buffer at its block filled out with `zfill`, the output buffer at the body's result of
    those; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xin m c t zfill
    | ⟨1, _⟩ => iblk m c 1 t
    | ⟨2, _⟩ => iblk m c 2 t
    | ⟨3, _⟩ => iblk m c 3 t
    | ⟨4, _⟩ => iblk m c 4 t
    | ⟨5, _⟩ => outAt m c t zfill
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xin m c t zfill := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t zfill := by dsimp only [dats]

/-- The big input buffer is fetched at every point: the body finds its block on the rows inside the array and `d`
    on the others. -/
theorem before0_0 (c : Dev nD) (t : Fin cfg0.N) (d) : (dats m 0 c).before 0 t d = xin m c t d := by
  unfold Dat.before; rw [if_pos (fetch0_0 t)]; rfl
/-- Each small input buffer holds its block at every point, fetched there or not. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- The output buffer is written back at every point, so the body finds it at contents nothing names. -/
theorem before0_5 (c : Dev nD) (t : Fin cfg0.N) (d) : (dats m 0 c).before 5 t d = d :=
  (dats m 0 c).before_out_reset 5 rfl t (by
    by_cases h0 : t.val = 0
    · exact .inl h0
    · exact .inr ⟨h0, flush0_5 _⟩) d

/-- The library's body obligation at every point, from the body's run on whole buffers. -/
theorem body_obligation (hloc : Local m) (c : Dev nD) :
    BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before0_0 m c t d0, before0_1 m c t d1, before0_2 m c t d2, before0_3 m c t d3, before0_4 m c t d4,
    before0_5 m c t d5]
  iapply (sound_kernel (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (xin m c t d0) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  have hx : win0_0.fill (grid0.coords t) d0 (win0_0.cut (grid0.coords t) (xin m c t zfill)) = xin m c t d0 := by
    unfold xin; rw [Window.cut_fill]
  have ho : win0_5.fill (grid0.coords t) (outAt m c t d0) (win0_5.cut (grid0.coords t) (outAt m c t zfill))
      = outBlk (xin m c t d0) (iblk m c 1 t) (iblk m c 2 t) (iblk m c 3 t) (iblk m c 4 t) := by
    rw [← hloc c t d0, Window.fill_cut]; rfl
  isplitl [H0]
  · iexists d0
    rw [after0_0]
    change _ ⊢ owns (c : Thread nD τ) (st0_0 t) fullShare (win0_0.fill (grid0.coords t) d0 (win0_0.cut (grid0.coords t) (xin m c t zfill)))
    rw [hx]; try iexact H0
  isplitl [H1]; · rw [after0_1]; iexact H1
  isplitl [H2]; · rw [after0_2]; iexact H2
  isplitl [H3]; · rw [after0_3]; iexact H3
  isplitl [H4]; · rw [after0_4]; iexact H4
  · iexists (outAt m c t d0)
    rw [after0_5]
    change _ ⊢ owns (c : Thread nD τ) (st0_5 t) fullShare (win0_5.fill (grid0.coords t) (outAt m c t d0) (win0_5.cut (grid0.coords t) (outAt m c t zfill)))
    rw [ho]; try iexact H5

set_option backward.isDefEq.respectTransparency.types false in
/-- Every weakly fair execution of @main terminates; every array of the pipeline ends at what the library
    computes from the proof data, every other buffer as the lines after the region leave it. -/
theorem run_main (hloc : Local m) : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m hloc c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's post, from the run. -/
theorem frame (hloc : Local m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ hloc)

end Cert.ReferenceIdeal.Hand

end
-- ==== Proof.RefPay.lean ====
/-
  The body's one stored value, read at an index, over the extended reals.
-/
import proofs.«115121_g2000306424445056_pallasbulk_1197_30_alg».proof.Proof.Gen.ReferenceIdeal.Skeleton
import proofs.«115121_g2000306424445056_pallasbulk_1197_30_alg».proof.Proof.ResultSpec
import proofs.«115121_g2000306424445056_pallasbulk_1197_30_alg».proof.Proof.LibTrailingUnit
import proofs.«115121_g2000306424445056_pallasbulk_1197_30_alg».proof.Proof.LibPlainMatmul
import proofs.«115121_g2000306424445056_pallasbulk_1197_30_alg».proof.Proof.LibCoordinateLayout
import proofs.«115121_g2000306424445056_pallasbulk_1197_30_alg».proof.Proof.LibRows

set_option maxRecDepth 16384

noncomputable section

open scoped BigOperators

namespace Cert.ReferenceIdeal.Pay

open Cert.ReferenceIdeal Cert.ReferenceIdeal.Gen Cert.Gate Cert.LibTrailingUnit
open Idealize.ShloMosaic Idealize.ShloMosaic.ValueIdx

/-- The hyperbolic tangent of a vector, at an index, is that of the element. -/
theorem tanh_apply {s : Shape} (a : FVec Ideal s .f32) (i : s.Idx) : tanh a i = Ideal.tanh (a i) := rfl

set_option backward.isDefEq.respectTransparency.types false in
/-- The stored value at batch row `p`, channel `c`, pixel `k` of the block: the second load of the input there
    times the gate of row `p` of the first load at channel `c`, the weights read with their coordinates exchanged
    (the host transposed them).  The mean's factor sits on the pooled sum here and the rectifier is a choice on
    the sign; both are the specification's by the two laws of the specification module. -/
theorem pay_apply (X : Vec Ideal S28x256x196 .f32) (W1t : Vec Ideal S256x16 .f32) (B1 : Vec Ideal S1x16 .f32)
    (W2t : Vec Ideal S16x256 .f32) (B2 : Vec Ideal S1x256 .f32) (X' : Vec Ideal S28x256x196 .f32)
    (p : Fin 28) (c : Fin 256) (k : Fin 196) :
    k0_pay1 (F := Ideal) X W1t B1 W2t B2 X' (ix3 p c k)
      = X' (ix3 p c k) * gate (fun c' k' => X (ix3 p c' k')) (swap W1t) B1 (swap W2t) B2 c := by
  have hsl : Ideal.ofBits .f32 0x3E4CCCCD#32 = Cert.Gate.slope := rfl
  have hk : Ideal.ofBits .f32 0x3BA72F05#32 = kap := rfl
  have hw1 : ∀ (i : Fin 256) (j : Fin 16), W1t (ix2 i j) = swap W1t (ix2 j i) := fun _ _ => rfl
  have hw2 : ∀ (i : Fin 16) (j : Fin 256), W2t (ix2 i j) = swap W2t (ix2 j i) := fun _ _ => rfl
  unfold k0_pay1
  simp only [shapeCast_self, mulf_apply, addf_apply, broadcast_apply, tanh_apply, cmpf_apply, select_apply,
    bcast_trailing_unit (a := 28) (b := 256) (c := 196) (by decide) (by decide), cast_trailing_unit,
    Cert.Rows.bcast_row (m := 28) (n := 16) (by decide), Cert.Rows.bcast_row (m := 28) (n := 256) (by decide),
    Cert.LibPlainMatmul.matmul_zero_apply dot_S28x256_S256x16_S28x16_1_0_0_1_n_n rfl rfl rfl rfl rfl rfl,
    Cert.LibPlainMatmul.matmul_zero_apply dot_S28x16_S16x256_S28x256_1_0_0_1_n_n rfl rfl rfl rfl rfl rfl,
    Ideal.ofBits_def, Ideal.ofBits_zero_f32, Ideal.cmpf_def]
  generalize hY : multiReduction (F := Ideal) (s := S28x256x196) (φ := FTy.f32) FKind.add [2] S28x256 X (0x00000000#32) _ _ _ = Y
  have hS : ∀ j : Fin 256, Y (ix2 p j) = ∑ k' : Fin 196, X (ix3 p j k') := fun j => by
    rw [← hY]; exact Cert.LibCoordinateLayout.sum3_axis2_apply X _ _ _ p j
  simp only [hS, hsl, hk, select_ogt, lrelu_eq_ite, hw1, hw2]
  simp only [gate, ← hid_assoc]

end Cert.ReferenceIdeal.Pay

end
-- ==== Proof.RefValue.lean ====
/-
  The result of the idealized reference program's region, as one function of the arrays it finds.

  Point `t` of the grid writes back rows `28·t … 28·t + 27` of the result array, cut at row 256; the ten blocks
  cover the array.  On the rows inside the array the body's result is the input there times the gate of that row,
  whatever the input buffer held on its other rows; so every entry of the final array is `Gout` of the arrays
  the region found, and the program's result is that array reshaped.
-/
import proofs.«115121_g2000306424445056_pallasbulk_1197_30_alg».proof.Proof.RefData
import proofs.«115121_g2000306424445056_pallasbulk_1197_30_alg».proof.Proof.RefPay
import Idealize.ShloMosaic.Lib.StableHlo.Run

set_option maxRecDepth 16384

noncomputable section

open scoped BigOperators

namespace Cert.ReferenceIdeal.Hand

open Cert.ReferenceIdeal Cert.ReferenceIdeal.Gen Cert.Gate
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (m : (ℓ : Loc nD τ sig) → Buf (Elt Ideal) ℓ) (ρ : Dev nD → PrngReg)

/-! ## The schedule's index arithmetic, decided over the ten points -/

theorem idx_big : ∀ t : Fin cfg0.N,
    (win0_0.index t 0 = t.val ∧ win0_0.index t 1 = 0 ∧ win0_0.index t 2 = 0)
    ∧ (win0_5.index t 0 = t.val ∧ win0_5.index t 1 = 0 ∧ win0_5.index t 2 = 0) :=
  (by decide +kernel : ∀ t : Fin grid0.N,
    (win0_0.index t 0 = t.val ∧ win0_0.index t 1 = 0 ∧ win0_0.index t 2 = 0)
    ∧ (win0_5.index t 0 = t.val ∧ win0_5.index t 1 = 0 ∧ win0_5.index t 2 = 0))

theorem xs_big : ∀ t : Fin cfg0.N,
    (win0_0.xsize (grid0.coords t) 0 = min 28 (256 - 28 * t.val) ∧ win0_0.xsize (grid0.coords t) 1 = 256
      ∧ win0_0.xsize (grid0.coords t) 2 = 196)
    ∧ (win0_5.xsize (grid0.coords t) 0 = min 28 (256 - 28 * t.val) ∧ win0_5.xsize (grid0.coords t) 1 = 256
      ∧ win0_5.xsize (grid0.coords t) 2 = 196) :=
  (by decide +kernel : ∀ t : Fin grid0.N,
    (win0_0.xsize (grid0.coords t) 0 = min 28 (256 - 28 * t.val) ∧ win0_0.xsize (grid0.coords t) 1 = 256
      ∧ win0_0.xsize (grid0.coords t) 2 = 196)
    ∧ (win0_5.xsize (grid0.coords t) 0 = min 28 (256 - 28 * t.val) ∧ win0_5.xsize (grid0.coords t) 1 = 256
      ∧ win0_5.xsize (grid0.coords t) 2 = 196))

theorem idx_small : ∀ t : Fin cfg0.N,
    (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0) :=
  (by decide +kernel : ∀ t : Fin grid0.N,
    (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0))

/-! ## The blocks, read off the arrays -/

/-- The (transposed) weights' and the biases' blocks are their whole arrays. -/
theorem iblk1_eq (c : Dev nD) (t : Fin cfg0.N) (y : S256x16.Idx) : iblk m c 1 t y = V m c main_v1 y := by
  show V m c main_v1 (((cfg0.win 1).blk t).view.emb y) = V m c main_v1 y
  refine congrArg _ (funext fun a => Fin.ext ?_)
  have h := (idx_small t).1
  match a with
  | ⟨0, _⟩ => show win0_1.index t 0 * 256 + 1 * (y 0).val = (y 0).val; rw [h.1]; omega
  | ⟨1, _⟩ => show win0_1.index t 1 * 16 + 1 * (y 1).val = (y 1).val; rw [h.2]; omega
theorem iblk2_eq (c : Dev nD) (t : Fin cfg0.N) (y : S1x16.Idx) : iblk m c 2 t y = V m c main_v3 y := by
  show V m c main_v3 (((cfg0.win 2).blk t).view.emb y) = V m c main_v3 y
  refine congrArg _ (funext fun a => Fin.ext ?_)
  have h := (idx_small t).2.1
  match a with
  | ⟨0, _⟩ => show win0_2.index t 0 * 1 + 1 * (y 0).val = (y 0).val; rw [h.1]; omega
  | ⟨1, _⟩ => show win0_2.index t 1 * 16 + 1 * (y 1).val = (y 1).val; rw [h.2]; omega
theorem iblk3_eq (c : Dev nD) (t : Fin cfg0.N) (y : S16x256.Idx) : iblk m c 3 t y = V m c main_v2 y := by
  show V m c main_v2 (((cfg0.win 3).blk t).view.emb y) = V m c main_v2 y
  refine congrArg _ (funext fun a => Fin.ext ?_)
  have h := (idx_small t).2.2.1
  match a with
  | ⟨0, _⟩ => show win0_3.index t 0 * 16 + 1 * (y 0).val = (y 0).val; rw [h.1]; omega
  | ⟨1, _⟩ => show win0_3.index t 1 * 256 + 1 * (y 1).val = (y 1).val; rw [h.2]; omega
theorem iblk4_eq (c : Dev nD) (t : Fin cfg0.N) (y : S1x256.Idx) : iblk m c 4 t y = V m c main_v4 y := by
  show V m c main_v4 (((cfg0.win 4).blk t).view.emb y) = V m c main_v4 y
  refine congrArg _ (funext fun a => Fin.ext ?_)
  have h := (idx_small t).2.2.2
  match a with
  | ⟨0, _⟩ => show win0_4.index t 0 * 1 + 1 * (y 0).val = (y 0).val; rw [h.1]; omega
  | ⟨1, _⟩ => show win0_4.index t 1 * 256 + 1 * (y 1).val = (y 1).val; rw [h.2]; omega

/-- Row `p` of the big input buffer, when it lies inside the array, is row `28·t + p` of the array, whatever the
    filler. -/
theorem xin_row (c : Dev nD) (t : Fin cfg0.N) (d : S28x256x196.Idx → Elt Ideal .f32) (p : Fin 28) (b : Fin 256)
    (hp : p.val < win0_0.xsize (grid0.coords t) 0) (hb : b.val = t.val * 28 + p.val) (c' : Fin 256) (k' : Fin 196) :
    xin m c t d (ix3 p c' k') = V m c main_v0 (ix3 b c' k') := by
  have hx := (xs_big t).1
  have hi := (idx_big t).1
  have hmv : win0_0.moved (grid0.coords t) (ix3 p c' k') = true :=
    (win0_0.moved_iff (grid0.coords t) _).mpr fun a => match a with
      | ⟨0, _⟩ => hp
      | ⟨1, _⟩ => by show c'.val < win0_0.xsize (grid0.coords t) 1; rw [hx.2.1]; exact c'.isLt
      | ⟨2, _⟩ => by show k'.val < win0_0.xsize (grid0.coords t) 2; rw [hx.2.2]; exact k'.isLt
  unfold xin Window.fill
  rw [dif_pos hmv]
  show V m c main_v0 (((cfg0.win 0).blk t).view.emb _) = V m c main_v0 (ix3 b c' k')
  refine congrArg _ (funext fun a => Fin.ext ?_)
  match a with
  | ⟨0, _⟩ => show win0_0.index t 0 * 28 + 1 * p.val = b.val; rw [hi.1, hb]; omega
  | ⟨1, _⟩ => show win0_0.index t 1 * 256 + 1 * c'.val = c'.val; rw [hi.2.1]; omega
  | ⟨2, _⟩ => show win0_0.index t 2 * 196 + 1 * k'.val = k'.val; rw [hi.2.2]; omega

/-- The result array of the region, entry by entry, from the arrays the region finds. -/
def Gfin (c : Dev nD) : S256x256x196.Idx → EReal :=
  Gout (V m c main_v0) (swap (V m c main_v1)) (V m c main_v3) (swap (V m c main_v2)) (V m c main_v4)

/-- What point `t` writes back — the output buffer's rows inside the array — is block `t` of `Gfin`, whatever
    the input buffer held past the array's end. -/
theorem cut_outAt (c : Dev nD) (t : Fin cfg0.N) (d : S28x256x196.Idx → Elt Ideal .f32) :
    win0_5.cut (grid0.coords t) (outAt m c t d) = (win0_5.blk t).view.read (Elt Ideal) (Gfin m c) := by
  funext y
  have hx := xs_big t
  have hi := (idx_big t).2
  have hy0 : (y 0).val < win0_5.xsize (grid0.coords t) 0 := (y 0).isLt
  have hy1 : (y 1).val < win0_5.xsize (grid0.coords t) 1 := (y 1).isLt
  have hy2 : (y 2).val < win0_5.xsize (grid0.coords t) 2 := (y 2).isLt
  rw [hx.2.1] at hy0; rw [hx.2.2.1] at hy1; rw [hx.2.2.2] at hy2
  have ht : t.val < 10 := t.isLt
  let p : Fin 28 := ⟨(y 0).val, by omega⟩
  let c1 : Fin 256 := ⟨(y 1).val, hy1⟩
  let k1 : Fin 196 := ⟨(y 2).val, hy2⟩
  let b : Fin 256 := ⟨t.val * 28 + (y 0).val, by omega⟩
  have ey : win0_5.xinj (grid0.coords t) y = ix3 p c1 k1 := funext fun a => Fin.ext (by
    match a with
    | ⟨0, _⟩ => rfl
    | ⟨1, _⟩ => rfl
    | ⟨2, _⟩ => rfl)
  have ee : (win0_5.blk t).view.emb y = ix3 b c1 k1 := funext fun a => Fin.ext (by
    match a with
    | ⟨0, _⟩ => show win0_5.index t 0 * 28 + 1 * (y 0).val = t.val * 28 + (y 0).val; rw [hi.1]; omega
    | ⟨1, _⟩ => show win0_5.index t 1 * 256 + 1 * (y 1).val = (y 1).val; rw [hi.2.1]; omega
    | ⟨2, _⟩ => show win0_5.index t 2 * 196 + 1 * (y 2).val = (y 2).val; rw [hi.2.2]; omega)
  show outAt m c t d (win0_5.xinj (grid0.coords t) y) = Gfin m c ((win0_5.blk t).view.emb y)
  rw [ey, ee]
  unfold outAt
  rw [outBlk_eq, Cert.ReferenceIdeal.Pay.pay_apply]
  have e1 : (iblk m c 1 t : S256x16.Idx → EReal) = V m c main_v1 := funext (iblk1_eq m c t)
  have e2 : (iblk m c 2 t : S1x16.Idx → EReal) = V m c main_v3 := funext (iblk2_eq m c t)
  have e3 : (iblk m c 3 t : S16x256.Idx → EReal) = V m c main_v2 := funext (iblk3_eq m c t)
  have e4 : (iblk m c 4 t : S1x256.Idx → EReal) = V m c main_v4 := funext (iblk4_eq m c t)
  rw [e1, e2, e3, e4]
  exact row_eq_Gout _ _ _ _ _ _ p b
    (fun c' k' => xin_row m c t d p b (by show (y 0).val < _; rw [hx.1.1]; omega) rfl c' k') c1 k1

/-- Every output row is computed from the same row of the input. -/
theorem local_ : Local m := fun c t d => (cut_outAt m c t d).trans (cut_outAt m c t zfill).symm

end Cert.ReferenceIdeal.Hand

end
-- ==== Proof.RefFinal.lean ====
/-
  The final contents of the idealized reference program's region result.
-/
import proofs.«115121_g2000306424445056_pallasbulk_1197_30_alg».proof.Proof.RefValue
import proofs.«115121_g2000306424445056_pallasbulk_1197_30_alg».proof.Proof.ResultSpec

set_option maxRecDepth 16384

noncomputable section

open scoped BigOperators

namespace Cert.ReferenceIdeal.Hand

open Cert.ReferenceIdeal Cert.ReferenceIdeal.Gen Cert.Gate
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (m : (ℓ : Loc nD τ sig) → Buf (Elt Ideal) ℓ) (ρ : Dev nD → PrngReg)

/-- What point `t` writes back is block `t` of `Gfin`. -/
theorem flushed_eq (c : Dev nD) (t : Fin cfg0.N) :
    (dats m 0 c).flushed 5 t = ((cfg0.win 5).blk t).view.read (Elt Ideal) (Gfin m c) := by
  show (cfg0.win 5).cut (grid0.coords t) ((dats m 0 c).after 5 t) = _
  rw [after0_5]; exact cut_outAt m c t zfill

/-- An index of the result array lies in block `t` iff each coordinate lies in the block's part inside the array. -/
theorem mem_blk5 (t : Fin cfg0.N) (i : S256x256x196.Idx) :
    i ∈ ((cfg0.win 5).blk t).view.set ↔ ∀ a, win0_5.index t a * win0_5.size a ≤ (i a).val
      ∧ (i a).val < win0_5.index t a * win0_5.size a + win0_5.xsize (grid0.coords t) a := by
  show i ∈ ((View.whole main_v5).slice (win0_5.rect t)).set ↔ _
  rw [View.set_slice_whole, Rect.mem_set_unit]

/-- Row `r` of the array lies in the block of point `r / 28`: the ten blocks cover the array. -/
theorem cover5 (i : S256x256x196.Idx) :
    ∃ t : Fin cfg0.N, (cfg0.win 5).flush t = true ∧ i ∈ ((cfg0.win 5).blk t).view.set := by
  have h0 : (i 0).val < 256 := (i 0).isLt
  have h1 : (i 1).val < 256 := (i 1).isLt
  have h2 : (i 2).val < 196 := (i 2).isLt
  have hN : cfg0.N = 10 := N_0
  let t : Fin cfg0.N := ⟨(i 0).val / 28, by rw [hN]; omega⟩
  have ht : t.val = (i 0).val / 28 := rfl
  have hx := (xs_big t).2
  have hi := (idx_big t).2
  refine ⟨t, flush0_5 t, (mem_blk5 t i).mpr fun a => ?_⟩
  match a with
  | ⟨0, _⟩ =>
    show win0_5.index t 0 * 28 ≤ (i 0).val ∧ (i 0).val < win0_5.index t 0 * 28 + win0_5.xsize (grid0.coords t) 0
    rw [hi.1, hx.1, ht]; omega
  | ⟨1, _⟩ =>
    show win0_5.index t 1 * 256 ≤ (i 1).val ∧ (i 1).val < win0_5.index t 1 * 256 + win0_5.xsize (grid0.coords t) 1
    rw [hi.2.1, hx.2.1]; omega
  | ⟨2, _⟩ =>
    show win0_5.index t 2 * 196 ≤ (i 2).val ∧ (i 2).val < win0_5.index t 2 * 196 + win0_5.xsize (grid0.coords t) 2
    rw [hi.2.2, hx.2.2]; omega

/-- The result array of the region ends at `Gfin`. -/
theorem final5 (c : Dev nD) : (dats m 0 c).arrAt 5 cfg0.N = Gfin m c :=
  (dats m 0 c).arrAt_eq_of_cover 5 (Gfin m c) (fun t _ => flushed_eq m c t) (cover5)

end Cert.ReferenceIdeal.Hand

end
-- ==== Proof.RefResult.lean ====
/-
  The idealized reference program's run, with its result named: the array of `Result` of the five arguments.

  The host flattens the image array, transposes the two weight matrices and recasts the two biases as rows before
  the region; the region's kernel reads the transposed weights with their coordinates exchanged, which is the
  weights themselves.
-/
import proofs.«115121_g2000306424445056_pallasbulk_1197_30_alg».proof.Proof.RefFinal

set_option maxRecDepth 16384

noncomputable section

open scoped BigOperators

namespace Cert.ReferenceIdeal.Hand

open Cert.ReferenceIdeal Cert.ReferenceIdeal.Gen Cert.Gate
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable (m : (ℓ : Loc nD τ sig) → Buf (Elt Ideal) ℓ) (ρ : Dev nD → PrngReg)

/-! ## The arrays the region finds, from the arguments -/

theorem V_v0 (c : Dev nD) : (V m c main_v0 : S256x256x196.Idx → EReal)
    = shapeCast S256x256x196 (m ((c : Thread nD τ).loc main_arg0)) shapeCasts_S256x256x14x14_S256x256x196 := by
  show StableHlo.after hostOps0 (fun b => m (c, b)) (Proc.devRef .tc main_v0) = _
  after_results; rfl
theorem V_v1 (c : Dev nD) : (V m c main_v1 : S256x16.Idx → EReal)
    = transpose S256x16 [1, 0] (m ((c : Thread nD τ).loc main_arg1)) transposes_S16x256_S256x16_1_0 := by
  show StableHlo.after hostOps0 (fun b => m (c, b)) (Proc.devRef .tc main_v1) = _
  after_results
theorem V_v2 (c : Dev nD) : (V m c main_v2 : S16x256.Idx → EReal)
    = transpose S16x256 [1, 0] (m ((c : Thread nD τ).loc main_arg3)) transposes_S256x16_S16x256_1_0 := by
  show StableHlo.after hostOps0 (fun b => m (c, b)) (Proc.devRef .tc main_v2) = _
  after_results
theorem V_v3 (c : Dev nD) : (V m c main_v3 : S1x16.Idx → EReal)
    = shapeCast S1x16 (m ((c : Thread nD τ).loc main_arg2)) shapeCasts_S16_S1x16 := by
  show StableHlo.after hostOps0 (fun b => m (c, b)) (Proc.devRef .tc main_v3) = _
  after_results; rfl
theorem V_v4 (c : Dev nD) : (V m c main_v4 : S1x256.Idx → EReal)
    = shapeCast S1x256 (m ((c : Thread nD τ).loc main_arg4)) shapeCasts_S256_S1x256 := by
  show StableHlo.after hostOps0 (fun b => m (c, b)) (Proc.devRef .tc main_v4) = _
  after_results; rfl

/-- The region's result array, from the arguments: the transposes cancel against the exchanged coordinates. -/
theorem Gfin_eq (c : Dev nD) : Gfin m c
    = Gout (shapeCast S256x256x196 (m ((c : Thread nD τ).loc main_arg0)) shapeCasts_S256x256x14x14_S256x256x196)
        (m ((c : Thread nD τ).loc main_arg1))
        (shapeCast S1x16 (m ((c : Thread nD τ).loc main_arg2)) shapeCasts_S16_S1x16)
        (m ((c : Thread nD τ).loc main_arg3))
        (shapeCast S1x256 (m ((c : Thread nD τ).loc main_arg4)) shapeCasts_S256_S1x256) := by
  unfold Gfin
  rw [V_v0 m c, V_v1 m c, V_v2 m c, V_v3 m c, V_v4 m c, swap_transpose, swap_transpose]

/-- The program's result: the host reshapes the region's result array after the region. -/
theorem result_eq (c : Dev nD) : Pipeline.afterTail₀ cfgs (dats m) 0 (V0 m) [hostOps1] c main_v6
    = Result (m ((c : Thread nD τ).loc main_arg0)) (m ((c : Thread nD τ).loc main_arg1)) (m ((c : Thread nD τ).loc main_arg2))
        (m ((c : Thread nD τ).loc main_arg3)) (m ((c : Thread nD τ).loc main_arg4))
        shapeCasts_S256x256x14x14_S256x256x196 shapeCasts_S16_S1x16 shapeCasts_S256_S1x256 shapeCasts_S256x256x196_S256x256x14x14 := by
  have hw : Pipeline.withArrays (cfgs 0).spec c (V0 m c) (fun w => (dats m 0 c).arrAt w (cfgs 0).N) (Proc.devRef .tc main_v5)
      = Gfin m c :=
    (Pipeline.withArrays_arr spec0 launch0.win.arr_inj c _ _ 5).trans (final5 m c)
  unfold Pipeline.afterTail₀
  show StableHlo.after hostOps1 _ (Proc.devRef .tc main_v6) = _
  after_results
  unfold Result
  rw [← Gfin_eq m c]
  exact congrArg (fun A : S256x256x196.Idx → EReal => shapeCast S256x256x14x14 A shapeCasts_S256x256x196_S256x256x14x14) hw

/-- The run: every weakly fair execution terminates with the result at `Result` of the arguments and the arguments
    unchanged (no argument array is a window's array: each ends as the lines after the region leave it). -/
theorem run_value : θ_run defs (onTc (τ := τ) (main (F := Ideal))) ⟨m, fun _ => 0, ρ⟩ (fun r => ∀ c : Dev nD,
      r.2.mem ((c.tc : Thread nD τ).loc main_v6)
        = Result (m ((c : Thread nD τ).loc main_arg0)) (m ((c : Thread nD τ).loc main_arg1)) (m ((c : Thread nD τ).loc main_arg2))
            (m ((c : Thread nD τ).loc main_arg3)) (m ((c : Thread nD τ).loc main_arg4))
            shapeCasts_S256x256x14x14_S256x256x196 shapeCasts_S16_S1x16 shapeCasts_S256_S1x256 shapeCasts_S256x256x196_S256x256x14x14
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ (local_ m))

end Cert.ReferenceIdeal.Hand

end
-- ==== Proof.lean ====
/-
  The proof of `Cert.Claim`: the three frames, the (empty) idealization ledger, and the equality of the idealized
  kernel's and the idealized reference's results over the extended reals.

  Both programs flatten the image array `x : [256, 256, 14, 14]` to `[256, 256, 196]`, run one pipelined region
  over ten blocks of 28 images — the last block overhanging the array by 24 rows, which the transfers cut — and
  reshape the region's result back.  In both, the entry of image `b`, channel `c`, pixel `k` is

      x (b, c, k) · tanh ( Σ_r lrelu ( Σ_c' (Σ_k' x (b, c', k')) · w1 (r, c') · κ + b1 r ) · w2 (c, r) + b2 c ),

  `κ` the word of 1/196 and the rectifier's slope the word of 0.2, the same words on both sides.  The kernel
  multiplies the transposed first weight by `κ` and rectifies by `max h 0 + s · min h 0`; the reference multiplies
  the pooled sum by `κ`, is handed the weights transposed by the host, and rectifies by a choice on the sign.
  Products on the extended reals commute and associate and the two rectifiers agree at every extended real, so
  the two results are one function of the arguments (`Cert.Gate.Result`) and no finiteness is used.

  Each frame follows from a run whose invariant names the two big staging buffers on the rows inside the array
  only: a fetch of the overhanging block leaves the other rows at contents nothing names, and a write-back never
  reads them.  For the two idealized programs the same run also names the result; for the program as printed the
  output buffer's contents are not named at all.
-/
import proofs.«115121_g2000306424445056_pallasbulk_1197_30_alg».proof.Defs
import proofs.«115121_g2000306424445056_pallasbulk_1197_30_alg».proof.Proof.Gen.Kernel
import proofs.«115121_g2000306424445056_pallasbulk_1197_30_alg».proof.Proof.Gen.KernelIdeal
import proofs.«115121_g2000306424445056_pallasbulk_1197_30_alg».proof.Proof.Gen.ReferenceIdeal
import proofs.«115121_g2000306424445056_pallasbulk_1197_30_alg».proof.Proof.Gen.Pre_finite_inputs
import proofs.«115121_g2000306424445056_pallasbulk_1197_30_alg».proof.Proof.BitsFrame
import proofs.«115121_g2000306424445056_pallasbulk_1197_30_alg».proof.Proof.IdealResult
import proofs.«115121_g2000306424445056_pallasbulk_1197_30_alg».proof.Proof.RefResult

noncomputable section

namespace Cert.Proof

open Idealize.ShloMosaic Idealize.SL.Sem

/-- The kernel program as printed runs and leaves its arguments unchanged. -/
theorem frame_k : Cert.frame_Kernel := fun m ρ _ => Cert.Kernel.Hand.frame (F := Bits) m ρ

/-- So does its idealization; -/
theorem frame_ki : Cert.frame_KernelIdeal := fun m ρ _ =>
  Cert.KernelIdeal.Hand.frame (F := Ideal) m ρ (Cert.KernelIdeal.Hand.local_ m)

/-- and so does the idealized reference. -/
theorem frame_ri : Cert.frame_ReferenceIdeal := fun m ρ _ =>
  Cert.ReferenceIdeal.Hand.frame (F := Ideal) m ρ (Cert.ReferenceIdeal.Hand.local_ m)

/-- The ideal pass rewrote nothing. -/
theorem preserves : Cert.preserves_Kernel_KernelIdeal := trivial

/-- From memories that agree on the arguments both idealized programs end with the result at `Result` of the
    arguments: the same array. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Hand.run_value m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
